-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x16x2048x64 : Shape := ⟨4, ![2, 16, 2048, 64]⟩
abbrev S2x1x2048x2048 : Shape := ⟨4, ![2, 1, 2048, 2048]⟩
abbrev S_ : Shape := ⟨0, ![]⟩

class Facts : Prop where
  bcast_S_S2x16x2048x64 : S_.BroadcastsInDim S2x16x2048x64 (![] : Fin 0 → Fin S2x16x2048x64.rank)
  reducesTo_S2x16x2048x64_S_d0_1_2_3 : S2x16x2048x64.ReducesTo [0, 1, 2, 3] S_
  h_S_ : 0 < S_.numel

variable [Facts]

def fn {F : FTy → Type} [FloatOps F] (main_arg0 : FVec F S2x16x2048x64 .f32) (main_arg1 : FVec F S2x16x2048x64 .f32) (main_arg2 : FVec F S2x16x2048x64 .f32) (main_arg3 : IVec S2x1x2048x2048 32) : IVec S_ 1 :=
  let main_v0 : FVec F S2x16x2048x64 .f32 := Host.absf main_arg0
  let main_cst : FVec F S_ .f32 := constant S_ .f32 0x7F800000#32
  let main_v1 : FVec F S2x16x2048x64 .f32 := broadcastInDim S2x16x2048x64 ![] bcast_S_S2x16x2048x64 main_cst
  let main_v2 : IVec S2x16x2048x64 1 := cmpf .olt main_v0 main_v1
  let main_c : IVec S_ 1 := constantI S_ 1 1#1
  let main_v3 : IVec S_ 1 := (fun x v => Host.reduce IntOp.andi x v reducesTo_S2x16x2048x64_S_d0_1_2_3 h_S_) main_v2 main_c
  let main_v4 : FVec F S2x16x2048x64 .f32 := Host.absf main_arg1
  let main_cst_0 : FVec F S_ .f32 := constant S_ .f32 0x7F800000#32
  let main_v5 : FVec F S2x16x2048x64 .f32 := broadcastInDim S2x16x2048x64 ![] bcast_S_S2x16x2048x64 main_cst_0
  let main_v6 : IVec S2x16x2048x64 1 := cmpf .olt main_v4 main_v5
  let main_c_1 : IVec S_ 1 := constantI S_ 1 1#1
  let main_v7 : IVec S_ 1 := (fun x v => Host.reduce IntOp.andi x v reducesTo_S2x16x2048x64_S_d0_1_2_3 h_S_) main_v6 main_c_1
  let main_v8 : IVec S_ 1 := andi main_v3 main_v7
  let main_v9 : FVec F S2x16x2048x64 .f32 := Host.absf main_arg2
  let main_cst_2 : FVec F S_ .f32 := constant S_ .f32 0x7F800000#32
  let main_v10 : FVec F S2x16x2048x64 .f32 := broadcastInDim S2x16x2048x64 ![] bcast_S_S2x16x2048x64 main_cst_2
  let main_v11 : IVec S2x16x2048x64 1 := cmpf .olt main_v9 main_v10
  let main_c_3 : IVec S_ 1 := constantI S_ 1 1#1
  let main_v12 : IVec S_ 1 := (fun x v => Host.reduce IntOp.andi x v reducesTo_S2x16x2048x64_S_d0_1_2_3 h_S_) main_v11 main_c_3
  let main_v13 : IVec S_ 1 := andi main_v8 main_v12
  main_v13
-- ==== Kernel.lean ====
abbrev S2x16x2048x64 : Shape := ⟨4, ![2, 16, 2048, 64]⟩
abbrev S2x1x2048x2048 : Shape := ⟨4, ![2, 1, 2048, 2048]⟩
abbrev S1x16x256x64 : Shape := ⟨4, ![1, 16, 256, 64]⟩
abbrev S1x16x2048x64 : Shape := ⟨4, ![1, 16, 2048, 64]⟩
abbrev S1x1x256x2048 : Shape := ⟨4, ![1, 1, 256, 2048]⟩
abbrev S256x2048 : Shape := ⟨2, ![256, 2048]⟩
abbrev S1x1x256x64 : Shape := ⟨4, ![1, 1, 256, 64]⟩
abbrev S256x64 : Shape := ⟨2, ![256, 64]⟩
abbrev S1x1x2048x64 : Shape := ⟨4, ![1, 1, 2048, 64]⟩
abbrev S2048x64 : Shape := ⟨2, ![2048, 64]⟩
abbrev S64x2048 : Shape := ⟨2, ![64, 2048]⟩
abbrev S256 : Shape := ⟨1, ![256]⟩
abbrev S256x1 : Shape := ⟨2, ![256, 1]⟩

abbrev nBuf : Space → Nat
  | .hbm => 8
  | .vmem => 8
  | .smem => 0
  | _ => 0

abbrev bufTy : (tb : Table) → Fin (tcTables nBuf tb) → BufTy
  | .hbm, ⟨0, _⟩ => ⟨S2x16x2048x64, .f32⟩
  | .hbm, ⟨1, _⟩ => ⟨S2x16x2048x64, .f32⟩
  | .hbm, ⟨2, _⟩ => ⟨S2x16x2048x64, .f32⟩
  | .hbm, ⟨3, _⟩ => ⟨S2x1x2048x2048, .i32⟩
  | .hbm, ⟨4, _⟩ => ⟨S2x16x2048x64, .bf16⟩
  | .hbm, ⟨5, _⟩ => ⟨S2x16x2048x64, .bf16⟩
  | .hbm, ⟨6, _⟩ => ⟨S2x16x2048x64, .bf16⟩
  | .hbm, ⟨7, _⟩ => ⟨S2x16x2048x64, .f32⟩
  | .local _ .vmem, ⟨0, _⟩ => ⟨S1x16x256x64, .bf16⟩
  | .local _ .vmem, ⟨1, _⟩ => ⟨S1x16x256x64, .bf16⟩
  | .local _ .vmem, ⟨2, _⟩ => ⟨S1x16x2048x64, .bf16⟩
  | .local _ .vmem, ⟨3, _⟩ => ⟨S1x16x2048x64, .bf16⟩
  | .local _ .vmem, ⟨4, _⟩ => ⟨S1x1x256x2048, .i32⟩
  | .local _ .vmem, ⟨5, _⟩ => ⟨S1x1x256x2048, .i32⟩
  | .local _ .vmem, ⟨6, _⟩ => ⟨S1x16x256x64, .f32⟩
  | .local _ .vmem, ⟨7, _⟩ => ⟨S1x16x256x64, .f32⟩
  | _, _ => ⟨S2x16x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![2, 8], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x16x256x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x16x2048x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S1x16x2048x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 2 → Memref sig .tc .vmem S1x1x256x2048 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x16x256x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  bitsLt_bf16_f32 : FTy.bits .bf16 < FTy.bits .f32
  inb_S1x1x256x2048_S1x1x256x2048_0_0_0_0 : ∀ a, (![0, 0, 0, 0] : Fin 4 → Nat) a + S1x1x256x2048.size a ≤ S1x1x256x2048.size a
  h_S1x1x256x2048 : 0 < S1x1x256x2048.numel
  shapeCasts_S1x1x256x2048_S256x2048 : S1x1x256x2048.ShapeCasts S256x2048
  inb_S1x16x256x64_S1x1x256x64_0_0_0_0 : ∀ a, (![0, 0, 0, 0] : Fin 4 → Nat) a + S1x1x256x64.size a ≤ S1x16x256x64.size a
  h_S1x1x256x64 : 0 < S1x1x256x64.numel
  shapeCasts_S1x1x256x64_S256x64 : S1x1x256x64.ShapeCasts S256x64
  inb_S1x16x2048x64_S1x1x2048x64_0_0_0_0 : ∀ a, (![0, 0, 0, 0] : Fin 4 → Nat) a + S1x1x2048x64.size a ≤ S1x16x2048x64.size a
  h_S1x1x2048x64 : 0 < S1x1x2048x64.numel
  shapeCasts_S1x1x2048x64_S2048x64 : S1x1x2048x64.ShapeCasts S2048x64
  transposes_S2048x64_p1_0_S64x2048 : S2048x64.Transposes [1, 0] S64x2048
  reduces_S256x2048_S256 : S256x2048.Reduces [1] S256
  shapeCasts_S256_S256x1 : S256.ShapeCasts S256x1
  broadcasts_S256x1_S256x2048 : S256x1.Broadcasts S256x2048
  shapeCasts_S256x64_S1x1x256x64 : S256x64.ShapeCasts S1x1x256x64
  inb_S1x16x256x64_S1x1x256x64_0_1_0_0 : ∀ a, (![0, 1, 0, 0] : Fin 4 → Nat) a + S1x1x256x64.size a ≤ S1x16x256x64.size a
  inb_S1x16x2048x64_S1x1x2048x64_0_1_0_0 : ∀ a, (![0, 1, 0, 0] : Fin 4 → Nat) a + S1x1x2048x64.size a ≤ S1x16x2048x64.size a
  inb_S1x16x256x64_S1x1x256x64_0_2_0_0 : ∀ a, (![0, 2, 0, 0] : Fin 4 → Nat) a + S1x1x256x64.size a ≤ S1x16x256x64.size a
  inb_S1x16x2048x64_S1x1x2048x64_0_2_0_0 : ∀ a, (![0, 2, 0, 0] : Fin 4 → Nat) a + S1x1x2048x64.size a ≤ S1x16x2048x64.size a
  inb_S1x16x256x64_S1x1x256x64_0_3_0_0 : ∀ a, (![0, 3, 0, 0] : Fin 4 → Nat) a + S1x1x256x64.size a ≤ S1x16x256x64.size a
  inb_S1x16x2048x64_S1x1x2048x64_0_3_0_0 : ∀ a, (![0, 3, 0, 0] : Fin 4 → Nat) a + S1x1x2048x64.size a ≤ S1x16x2048x64.size a
  inb_S1x16x256x64_S1x1x256x64_0_4_0_0 : ∀ a, (![0, 4, 0, 0] : Fin 4 → Nat) a + S1x1x256x64.size a ≤ S1x16x256x64.size a
  inb_S1x16x2048x64_S1x1x2048x64_0_4_0_0 : ∀ a, (![0, 4, 0, 0] : Fin 4 → Nat) a + S1x1x2048x64.size a ≤ S1x16x2048x64.size a
  inb_S1x16x256x64_S1x1x256x64_0_5_0_0 : ∀ a, (![0, 5, 0, 0] : Fin 4 → Nat) a + S1x1x256x64.size a ≤ S1x16x256x64.size a
  inb_S1x16x2048x64_S1x1x2048x64_0_5_0_0 : ∀ a, (![0, 5, 0, 0] : Fin 4 → Nat) a + S1x1x2048x64.size a ≤ S1x16x2048x64.size a
  inb_S1x16x256x64_S1x1x256x64_0_6_0_0 : ∀ a, (![0, 6, 0, 0] : Fin 4 → Nat) a + S1x1x256x64.size a ≤ S1x16x256x64.size a
  inb_S1x16x2048x64_S1x1x2048x64_0_6_0_0 : ∀ a, (![0, 6, 0, 0] : Fin 4 → Nat) a + S1x1x2048x64.size a ≤ S1x16x2048x64.size a
  inb_S1x16x256x64_S1x1x256x64_0_7_0_0 : ∀ a, (![0, 7, 0, 0] : Fin 4 → Nat) a + S1x1x256x64.size a ≤ S1x16x256x64.size a
  inb_S1x16x2048x64_S1x1x2048x64_0_7_0_0 : ∀ a, (![0, 7, 0, 0] : Fin 4 → Nat) a + S1x1x2048x64.size a ≤ S1x16x2048x64.size a
  inb_S1x16x256x64_S1x1x256x64_0_8_0_0 : ∀ a, (![0, 8, 0, 0] : Fin 4 → Nat) a + S1x1x256x64.size a ≤ S1x16x256x64.size a
  inb_S1x16x2048x64_S1x1x2048x64_0_8_0_0 : ∀ a, (![0, 8, 0, 0] : Fin 4 → Nat) a + S1x1x2048x64.size a ≤ S1x16x2048x64.size a
  inb_S1x16x256x64_S1x1x256x64_0_9_0_0 : ∀ a, (![0, 9, 0, 0] : Fin 4 → Nat) a + S1x1x256x64.size a ≤ S1x16x256x64.size a
  inb_S1x16x2048x64_S1x1x2048x64_0_9_0_0 : ∀ a, (![0, 9, 0, 0] : Fin 4 → Nat) a + S1x1x2048x64.size a ≤ S1x16x2048x64.size a
  inb_S1x16x256x64_S1x1x256x64_0_10_0_0 : ∀ a, (![0, 10, 0, 0] : Fin 4 → Nat) a + S1x1x256x64.size a ≤ S1x16x256x64.size a
  inb_S1x16x2048x64_S1x1x2048x64_0_10_0_0 : ∀ a, (![0, 10, 0, 0] : Fin 4 → Nat) a + S1x1x2048x64.size a ≤ S1x16x2048x64.size a
  inb_S1x16x256x64_S1x1x256x64_0_11_0_0 : ∀ a, (![0, 11, 0, 0] : Fin 4 → Nat) a + S1x1x256x64.size a ≤ S1x16x256x64.size a
  inb_S1x16x2048x64_S1x1x2048x64_0_11_0_0 : ∀ a, (![0, 11, 0, 0] : Fin 4 → Nat) a + S1x1x2048x64.size a ≤ S1x16x2048x64.size a
  inb_S1x16x256x64_S1x1x256x64_0_12_0_0 : ∀ a, (![0, 12, 0, 0] : Fin 4 → Nat) a + S1x1x256x64.size a ≤ S1x16x256x64.size a
  inb_S1x16x2048x64_S1x1x2048x64_0_12_0_0 : ∀ a, (![0, 12, 0, 0] : Fin 4 → Nat) a + S1x1x2048x64.size a ≤ S1x16x2048x64.size a
  inb_S1x16x256x64_S1x1x256x64_0_13_0_0 : ∀ a, (![0, 13, 0, 0] : Fin 4 → Nat) a + S1x1x256x64.size a ≤ S1x16x256x64.size a
  inb_S1x16x2048x64_S1x1x2048x64_0_13_0_0 : ∀ a, (![0, 13, 0, 0] : Fin 4 → Nat) a + S1x1x2048x64.size a ≤ S1x16x2048x64.size a
  inb_S1x16x256x64_S1x1x256x64_0_14_0_0 : ∀ a, (![0, 14, 0, 0] : Fin 4 → Nat) a + S1x1x256x64.size a ≤ S1x16x256x64.size a
  inb_S1x16x2048x64_S1x1x2048x64_0_14_0_0 : ∀ a, (![0, 14, 0, 0] : Fin 4 → Nat) a + S1x1x2048x64.size a ≤ S1x16x2048x64.size a
  inb_S1x16x256x64_S1x1x256x64_0_15_0_0 : ∀ a, (![0, 15, 0, 0] : Fin 4 → Nat) a + S1x1x256x64.size a ≤ S1x16x256x64.size a
  inb_S1x16x2048x64_S1x1x2048x64_0_15_0_0 : ∀ a, (![0, 15, 0, 0] : Fin 4 → Nat) a + S1x1x2048x64.size a ≤ S1x16x2048x64.size a
  dot_S256x64_S64x2048_S256x2048_1_0_0_1_n_n_wf : DotDims.WF S256x64 S64x2048 S256x2048 [1] [0] [0] [1] [] []
  dot_S256x2048_S2048x64_S256x64_1_0_0_1_n_n_wf : DotDims.WF S256x2048 S2048x64 S256x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x16x256x64.size a ≤ S2x16x2048x64.size a
  hwx0_0 : ∀ i : grid0.Coords, EltTy.bits .bf16 = 32 ∨ (Rect.block (s := S2x16x2048x64) S1x16x256x64.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x16x2048x64.size a ≤ S2x16x2048x64.size a
  hwx0_1 : ∀ i : grid0.Coords, EltTy.bits .bf16 = 32 ∨ (Rect.block (s := S2x16x2048x64) S1x16x2048x64.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x16x2048x64.size a ≤ S2x16x2048x64.size a
  hwx0_2 : ∀ i : grid0.Coords, EltTy.bits .bf16 = 32 ∨ (Rect.block (s := S2x16x2048x64) S1x16x2048x64.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x256x2048.size a ≤ S2x1x2048x2048.size a
  hwx0_3 : ∀ i : grid0.Coords, EltTy.bits .i32 = 32 ∨ (Rect.block (s := S2x1x2048x2048) S1x1x256x2048.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x16x256x64.size a ≤ S2x16x2048x64.size a
  hwx0_4 : ∀ i : grid0.Coords, EltTy.bits .f32 = 32 ∨ (Rect.block (s := S2x16x2048x64) S1x16x256x64.size (cc0_transform_4 i) (hinb0_4 i)).WholeWords (EltTy.packing .f32)

variable [Facts₀]

def dot_S256x64_S64x2048_S256x2048_1_0_0_1_n_n : DotDims S256x64 S64x2048 S256x2048 where
  lhsContracting := [1]
  rhsContracting := [0]
  lhsNonContracting := [0]
  rhsNonContracting := [1]
  lhsBatch := []
  rhsBatch := []
  wf := dot_S256x64_S64x2048_S256x2048_1_0_0_1_n_n_wf
def dot_S256x2048_S2048x64_S256x64_1_0_0_1_n_n : DotDims S256x2048 S2048x64 S256x64 where
  lhsContracting := [1]
  rhsContracting := [0]
  lhsNonContracting := [0]
  rhsNonContracting := [1]
  lhsBatch := []
  rhsBatch := []
  wf := dot_S256x2048_S2048x64_S256x64_1_0_0_1_n_n_wf

abbrev win0_0 : Pipeline.Window sig grid0 :=
  Pipeline.Window.ofSpec (Memref.whole main_v0) S1x16x256x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x16x2048x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x16x2048x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1x1x256x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1x16x256x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S2x16x2048x64 : Shape := ⟨4, ![2, 16, 2048, 64]⟩
abbrev S2x1x2048x2048 : Shape := ⟨4, ![2, 1, 2048, 2048]⟩
abbrev S2x16x2048x2048 : Shape := ⟨4, ![2, 16, 2048, 2048]⟩
abbrev S_ : Shape := ⟨0, ![]⟩
abbrev S2x16x2048 : Shape := ⟨3, ![2, 16, 2048]⟩
abbrev S2x16x2048x1 : Shape := ⟨4, ![2, 16, 2048, 1]⟩

abbrev nBuf : Space → Nat
  | .hbm => 26
  | .vmem => 0
  | .smem => 0
  | _ => 0

abbrev bufTy : (tb : Table) → Fin (tcTables nBuf tb) → BufTy
  | .hbm, ⟨0, _⟩ => ⟨S2x16x2048x64, .f32⟩
  | .hbm, ⟨1, _⟩ => ⟨S2x16x2048x64, .f32⟩
  | .hbm, ⟨2, _⟩ => ⟨S2x16x2048x64, .f32⟩
  | .hbm, ⟨3, _⟩ => ⟨S2x1x2048x2048, .i32⟩
  | .hbm, ⟨4, _⟩ => ⟨S2x16x2048x2048, .f32⟩
  | .hbm, ⟨5, _⟩ => ⟨S_, .f32⟩
  | .hbm, ⟨6, _⟩ => ⟨S2x16x2048x2048, .f32⟩
  | .hbm, ⟨7, _⟩ => ⟨S2x16x2048x2048, .f32⟩
  | .hbm, ⟨8, _⟩ => ⟨S_, .i32⟩
  | .hbm, ⟨9, _⟩ => ⟨S2x1x2048x2048, .i32⟩
  | .hbm, ⟨10, _⟩ => ⟨S2x1x2048x2048, .i1⟩
  | .hbm, ⟨11, _⟩ => ⟨S_, .f32⟩
  | .hbm, ⟨12, _⟩ => ⟨S2x16x2048x2048, .i1⟩
  | .hbm, ⟨13, _⟩ => ⟨S2x16x2048x2048, .f32⟩
  | .hbm, ⟨14, _⟩ => ⟨S2x16x2048x2048, .f32⟩
  | .hbm, ⟨15, _⟩ => ⟨S2x16x2048x2048, .f32⟩
  | .hbm, ⟨16, _⟩ => ⟨S_, .f32⟩
  | .hbm, ⟨17, _⟩ => ⟨S2x16x2048, .f32⟩
  | .hbm, ⟨18, _⟩ => ⟨S2x16x2048x1, .f32⟩
  | .hbm, ⟨19, _⟩ => ⟨S2x16x2048x1, .f32⟩
  | .hbm, ⟨20, _⟩ => ⟨S_, .f32⟩
  | .hbm, ⟨21, _⟩ => ⟨S2x16x2048x1, .f32⟩
  | .hbm, ⟨22, _⟩ => ⟨S2x16x2048x1, .f32⟩
  | .hbm, ⟨23, _⟩ => ⟨S2x16x2048x2048, .f32⟩
  | .hbm, ⟨24, _⟩ => ⟨S2x16x2048x2048, .f32⟩
  | .hbm, ⟨25, _⟩ => ⟨S2x16x2048x64, .f32⟩
  | _, _ => ⟨S2x16x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_call0_v0 : Ref sig .tc := ⟨.hbm, 12, rfl⟩
abbrev main_call0_v1 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_2 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩

abbrev nD : Nat := 1
abbrev τ : Topo := Topo.v7x

variable {F : FTy → Type} [FloatOps F]

class Facts₀ : Prop where
  bcast_S_S2x16x2048x2048 : S_.BroadcastsInDim S2x16x2048x2048 (![] : Fin 0 → Fin S2x16x2048x2048.rank)
  bcast_S_S2x1x2048x2048 : S_.BroadcastsInDim S2x1x2048x2048 (![] : Fin 0 → Fin S2x1x2048x2048.rank)
  bcast_S2x1x2048x2048_S2x16x2048x2048_0_1_2_3 : S2x1x2048x2048.BroadcastsInDim S2x16x2048x2048 (![0, 1, 2, 3] : Fin 4 → Fin S2x16x2048x2048.rank)
  reducesTo_S2x16x2048x2048_S2x16x2048_d3 : S2x16x2048x2048.ReducesTo [3] S2x16x2048
  h_S_ : 0 < S_.numel
  bcast_S2x16x2048_S2x16x2048x1_0_1_2 : S2x16x2048.BroadcastsInDim S2x16x2048x1 (![0, 1, 2] : Fin 3 → Fin S2x16x2048x1.rank)
  bcast_S_S2x16x2048x1 : S_.BroadcastsInDim S2x16x2048x1 (![] : Fin 0 → Fin S2x16x2048x1.rank)
  bcast_S2x16x2048x1_S2x16x2048x2048_0_1_2_3 : S2x16x2048x1.BroadcastsInDim S2x16x2048x2048 (![0, 1, 2, 3] : Fin 4 → Fin S2x16x2048x2048.rank)
  dot_S2x16x2048x64_S2x16x2048x64_S2x16x2048x2048_3_3_2_2_01_01_wf : DotDims.WF S2x16x2048x64 S2x16x2048x64 S2x16x2048x2048 [3] [3] [2] [2] [0, 1] [0, 1]
  dot_S2x16x2048x2048_S2x16x2048x64_S2x16x2048x64_3_2_2_3_01_01_wf : DotDims.WF S2x16x2048x2048 S2x16x2048x64 S2x16x2048x64 [3] [2] [2] [3] [0, 1] [0, 1]

variable [Facts₀]

def dot_S2x16x2048x64_S2x16x2048x64_S2x16x2048x2048_3_3_2_2_01_01 : DotDims S2x16x2048x64 S2x16x2048x64 S2x16x2048x2048 where
  lhsContracting := [3]
  rhsContracting := [3]
  lhsNonContracting := [2]
  rhsNonContracting := [2]
  lhsBatch := [0, 1]
  rhsBatch := [0, 1]
  wf := dot_S2x16x2048x64_S2x16x2048x64_S2x16x2048x2048_3_3_2_2_01_01_wf
def dot_S2x16x2048x2048_S2x16x2048x64_S2x16x2048x64_3_2_2_3_01_01 : DotDims S2x16x2048x2048 S2x16x2048x64 S2x16x2048x64 where
  lhsContracting := [3]
  rhsContracting := [2]
  lhsNonContracting := [2]
  rhsNonContracting := [3]
  lhsBatch := [0, 1]
  rhsBatch := [0, 1]
  wf := dot_S2x16x2048x2048_S2x16x2048x64_S2x16x2048x64_3_2_2_3_01_01_wf

class Facts : Prop extends Facts₀ where

variable [Facts]
-- ==== Proof.RowLaw.lean ====
/-
  The function both programs compute, one output entry at a time.

  For one batch b, head h and query row q, with the query vector x = Q[b,h,q,·] (64 entries), the keys
  K[b,h,j,·] (2048 rows of 64), the mask row M[b,0,q,·] (2048 words) and the values V[b,h,·,d]:

    the masked score of key j     s j = 0                        when the mask word is 0,
                                      = (Σ_e x e · K j e) + c    otherwise          (c the word of 1e-5);
    the row's norm                n   = max (√(Σ_l s l · s l)) ε                     (ε the word of 1e-12);
    the output entry              Σ_j (s j / n) · V j d.

  The float words are kept as words: the same word on both sides is never evaluated. The quotient is the ideal
  division and the square root the ideal square root of the extended reals.
-/
import Idealize.ShloMosaic.PureOps.Ideal
import Idealize.ShloMosaic.Lib.ValueIdx

noncomputable section

namespace Cert.NormScores

open Idealize.ShloMosaic Idealize.ShloMosaic.ValueIdx

/-- The masked score of key `j`: zero where the mask word is zero, else the dot product of the query with the key plus
    the small shift. -/
def score (msk : Fin 2048 → BitVec 32) (x : Fin 64 → EReal) (k : Fin 2048 → Fin 64 → EReal) (j : Fin 2048) : EReal :=
  Scalar.select (IntOp.cmpi .eq (msk j) 0#32) (Ideal.ofBits .f32 0x00000000#32)
    ((∑ e : Fin 64, x e * k j e) + Ideal.ofBits .f32 0x3727C5AC#32)

/-- The Euclidean norm of a row of scores, kept above the floor word. -/
def rowNorm (s : Fin 2048 → EReal) : EReal :=
  max (Ideal.sqrt (∑ l : Fin 2048, s l * s l)) (Ideal.ofBits .f32 0x2B8CBCCC#32)

/-- One output entry: the normalised scores of the row contracted with a column of values. -/
def rowOut (msk : Fin 2048 → BitVec 32) (x : Fin 64 → EReal) (k : Fin 2048 → Fin 64 → EReal) (v : Fin 2048 → EReal) : EReal :=
  ∑ j : Fin 2048, Ideal.div (score msk x k j) (rowNorm (score msk x k)) * v j

/-- The whole result by coordinates: batch `b`, head `h`, query row `p`, feature `d`. The mask has one head. -/
def outAt (Qa Ka Va : (⟨4, ![2, 16, 2048, 64]⟩ : Shape).Idx → EReal) (Ma : (⟨4, ![2, 1, 2048, 2048]⟩ : Shape).Idx → BitVec 32)
    (b : Fin 2) (h : Fin 16) (p : Fin 2048) (d : Fin 64) : EReal :=
  rowOut (fun j => Ma (ix4 b (0 : Fin 1) p j)) (fun e => Qa (ix4 b h p e)) (fun j e => Ka (ix4 b h j e))
    (fun j => Va (ix4 b h j d))

/-- The whole result as one array. -/
def out (Qa Ka Va : (⟨4, ![2, 16, 2048, 64]⟩ : Shape).Idx → EReal) (Ma : (⟨4, ![2, 1, 2048, 2048]⟩ : Shape).Idx → BitVec 32) :
    (⟨4, ![2, 16, 2048, 64]⟩ : Shape).Idx → EReal :=
  fun i => outAt Qa Ka Va Ma (i 0) (i 1) (i 2) (i 3)

theorem out_ix4 (Qa Ka Va : (⟨4, ![2, 16, 2048, 64]⟩ : Shape).Idx → EReal) (Ma : (⟨4, ![2, 1, 2048, 2048]⟩ : Shape).Idx → BitVec 32)
    (b : Fin 2) (h : Fin 16) (p : Fin 2048) (d : Fin 64) : out Qa Ka Va Ma (ix4 b h p d) = outAt Qa Ka Va Ma b h p d := rfl

end Cert.NormScores

end
-- ==== Proof.LibLayout.lean ====
/-
  Layout operations of small shapes read at an index, in the forms a row-wise normalisation needs: a vector made a
  column and a column spread over the columns of a matrix (the two halves of a `keepdims` reduction's broadcast), a
  row vector made a one-row matrix and spread over the rows, and a scalar spread over any shape. Each says which
  operand entry the result reads at `(p, c)`.
-/
import Idealize.ShloMosaic.Lib.ValueIdx
import Idealize.ShloMosaic.Lib.ValueLayout
import Idealize.ShloMosaic.Lib.Pipeline.Value

namespace Cert.LibLayout

open Idealize.ShloMosaic Idealize.ShloMosaic.ValueIdx

variable {α : Type}

/-- An `[a]` array cast to a column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A scalar spread over any shape (`broadcast_in_dim` with no axis) reads the scalar everywhere. -/
theorem broadcastInDim_scalar_apply {t : Shape} (x : (⟨0, ![]⟩ : Shape).Idx → α)
    (h : (⟨0, ![]⟩ : Shape).BroadcastsInDim t (![] : Fin 0 → Fin t.rank)) (j : t.Idx) :
    broadcastInDim t ![] h x j = x ix0 :=
  broadcastInDim_apply _ h x j ix0 fun ax => ax.elim0

/-- A vector `[b]` made the one row of `[1, b]` (`broadcast_in_dim` on axis 1) reads, at `(u, c)`, the operand at `c`. -/
theorem broadcastInDim_b_1b_apply {b : ℕ} (x : (⟨1, ![b]⟩ : Shape).Idx → α)
    (h : (⟨1, ![b]⟩ : Shape).BroadcastsInDim ⟨2, ![1, b]⟩ (![1] : Fin 1 → Fin 2)) (u : Fin 1) (c : Fin b) :
    broadcastInDim ⟨2, ![1, b]⟩ ![1] h x (ix2 u c) = x (ix1 c) := by
  refine broadcastInDim_apply _ h x (ix2 u c) (ix1 c) fun ax => ?_
  match ax with
  | ⟨0, _⟩ =>
    show c.val = if b = 1 then 0 else c.val
    split
    · have := c.isLt; omega
    · rfl

/-- A one-row matrix `[1, b]` spread over `a` rows (`broadcast_in_dim` on axes 0, 1) reads, at `(p, c)`, the row at `c`. -/
theorem broadcastInDim_1b_ab_apply {a b : ℕ} (x : (⟨2, ![1, b]⟩ : Shape).Idx → α)
    (h : (⟨2, ![1, b]⟩ : Shape).BroadcastsInDim ⟨2, ![a, b]⟩ (![0, 1] : Fin 2 → Fin 2)) (p : Fin a) (c : Fin b) :
    broadcastInDim ⟨2, ![a, b]⟩ ![0, 1] h x (ix2 p c) = x (ix2 (0 : Fin 1) c) := by
  refine broadcastInDim_apply _ h x (ix2 p c) (ix2 (0 : Fin 1) c) fun ax => ?_
  match ax with
  | ⟨0, _⟩ => rfl
  | ⟨1, _⟩ =>
    show c.val = if b = 1 then 0 else c.val
    split
    · have := c.isLt; omega
    · rfl

/-- A vector `[a]` made a column `[a, 1]` (`broadcast_in_dim` on axis 0) reads, at `(i, u)`, the operand at `i`. -/
theorem broadcastInDim_a_a1_apply {a : ℕ} (x : (⟨1, ![a]⟩ : Shape).Idx → α)
    (h : (⟨1, ![a]⟩ : Shape).BroadcastsInDim ⟨2, ![a, 1]⟩ (![0] : Fin 1 → Fin 2)) (i : Fin a) (u : Fin 1) :
    broadcastInDim ⟨2, ![a, 1]⟩ ![0] h x (ix2 i u) = x (ix1 i) := by
  refine broadcastInDim_apply _ h x (ix2 i u) (ix1 i) fun ax => ?_
  match ax with
  | ⟨0, _⟩ =>
    show i.val = if a = 1 then 0 else i.val
    split
    · have := i.isLt; omega
    · rfl

/-- A column `[a, 1]` spread over `b` columns (`broadcast_in_dim` on axes 0, 1) reads, at `(p, c)`, the column's entry of row `p`. -/
theorem broadcastInDim_a1_ab_apply {a b : ℕ} (x : (⟨2, ![a, 1]⟩ : Shape).Idx → α)
    (h : (⟨2, ![a, 1]⟩ : Shape).BroadcastsInDim ⟨2, ![a, b]⟩ (![0, 1] : Fin 2 → Fin 2)) (p : Fin a) (c : Fin b) :
    broadcastInDim ⟨2, ![a, b]⟩ ![0, 1] h x (ix2 p c) = x (ix2 p (0 : Fin 1)) := by
  refine broadcastInDim_apply _ h x (ix2 p c) (ix2 p (0 : Fin 1)) fun ax => ?_
  match ax with
  | ⟨0, _⟩ =>
    show p.val = if a = 1 then 0 else p.val
    split
    · have := p.isLt; omega
    · rfl
  | ⟨1, _⟩ => rfl

end Cert.LibLayout
-- ==== Proof.LibLayoutB.lean ====
/-
  More layout operations read at an index, by coordinates: the casts and broadcasts of ranks 2–4 by which a kernel body
  spreads a row over a block (an [a, b] matrix as [a, 1, b], a [c] vector as [1, 1, c], either broadcast to [a, b, c]) and
  flattens or unflattens the two leading axes of a rank-3 block ([a, b, c] as [a·b, c] and back).
-/
import Idealize.ShloMosaic.Lib.ValueIdx
import Idealize.ShloMosaic.Lib.ValueLayout
import Idealize.ShloMosaic.Lib.Pipeline.Value

namespace Cert.LibLayoutB

open Idealize.ShloMosaic Idealize.ShloMosaic.ValueIdx

variable {α : Type}

/-- An [a, b] matrix cast to [a, 1, b] reads, at (p, u, q), the operand at (p, q). -/
theorem shapeCast_ab_a1b_apply {a b : ℕ} (x : (⟨2, ![a, b]⟩ : Shape).Idx → α)
    (h : (⟨2, ![a, b]⟩ : Shape).ShapeCasts ⟨3, ![a, 1, b]⟩) (p : Fin a) (u : Fin 1) (q : Fin b) :
    shapeCast ⟨3, ![a, 1, b]⟩ x h (ix3 p u q) = x (ix2 p q) :=
  shapeCast_apply x h _ _ (by
    have hu : u.val = 0 := by omega
    rw [Shape.rowMajor_val_three, Shape.rowMajor_val_two]
    show p.val * b + q.val = (p.val * 1 + u.val) * b + q.val
    rw [hu, Nat.mul_one, Nat.add_zero])

/-- A [c] vector cast to [1, 1, c] reads, at (u, v, r), the operand at r. -/
theorem shapeCast_c_11c_apply {c : ℕ} (x : (⟨1, ![c]⟩ : Shape).Idx → α)
    (h : (⟨1, ![c]⟩ : Shape).ShapeCasts ⟨3, ![1, 1, c]⟩) (u v : Fin 1) (r : Fin c) :
    shapeCast ⟨3, ![1, 1, c]⟩ x h (ix3 u v r) = x (ix1 r) :=
  shapeCast_apply x h _ _ (by
    have hu : u.val = 0 := by omega
    have hv : v.val = 0 := by omega
    rw [Shape.rowMajor_val_three, Shape.rowMajor_val_one]
    show r.val = (u.val * 1 + v.val) * c + r.val
    simp only [hu, hv, Nat.zero_mul, Nat.zero_add, Nat.mul_one, Nat.add_zero])

/-- An [a, 1, c] array broadcast to [a, b, c] reads, at (p, q, r), the operand at (p, 0, r). -/
theorem broadcastTo_a1c_abc_apply {a b c : ℕ} (x : (⟨3, ![a, 1, c]⟩ : Shape).Idx → α)
    (h : (⟨3, ![a, 1, c]⟩ : Shape).Broadcasts ⟨3, ![a, b, c]⟩) (p : Fin a) (q : Fin b) (r : Fin c) :
    broadcastTo ⟨3, ![a, b, c]⟩ x h (ix3 p q r) = x (ix3 p (0 : Fin 1) r) := by
  refine broadcastTo_apply x h (ix3 p q r) (ix3 p (0 : Fin 1) r) fun ax => ?_
  match ax with
  | ⟨0, _⟩ =>
    show p.val = if a = 1 then 0 else p.val
    split
    · have := p.isLt; omega
    · rfl
  | ⟨1, _⟩ => rfl
  | ⟨2, _⟩ =>
    show r.val = if c = 1 then 0 else r.val
    split
    · have := r.isLt; omega
    · rfl

/-- A [1, b, c] array broadcast to [a, b, c] reads, at (p, q, r), the operand at (0, q, r). -/
theorem broadcastTo_1bc_abc_apply {a b c : ℕ} (x : (⟨3, ![1, b, c]⟩ : Shape).Idx → α)
    (h : (⟨3, ![1, b, c]⟩ : Shape).Broadcasts ⟨3, ![a, b, c]⟩) (p : Fin a) (q : Fin b) (r : Fin c) :
    broadcastTo ⟨3, ![a, b, c]⟩ x h (ix3 p q r) = x (ix3 (0 : Fin 1) q r) := by
  refine broadcastTo_apply x h (ix3 p q r) (ix3 (0 : Fin 1) q r) fun ax => ?_
  match ax with
  | ⟨0, _⟩ => rfl
  | ⟨1, _⟩ =>
    show q.val = if b = 1 then 0 else q.val
    split
    · have := q.isLt; omega
    · rfl
  | ⟨2, _⟩ =>
    show r.val = if c = 1 then 0 else r.val
    split
    · have := r.isLt; omega
    · rfl

/-- A [1, 1, c] array broadcast to [a, b, c] reads, at (p, q, r), the operand at (0, 0, r). -/
theorem broadcastTo_11c_abc_apply {a b c : ℕ} (x : (⟨3, ![1, 1, c]⟩ : Shape).Idx → α)
    (h : (⟨3, ![1, 1, c]⟩ : Shape).Broadcasts ⟨3, ![a, b, c]⟩) (p : Fin a) (q : Fin b) (r : Fin c) :
    broadcastTo ⟨3, ![a, b, c]⟩ x h (ix3 p q r) = x (ix3 (0 : Fin 1) (0 : Fin 1) r) := by
  refine broadcastTo_apply x h (ix3 p q r) (ix3 (0 : Fin 1) (0 : Fin 1) r) fun ax => ?_
  match ax with
  | ⟨0, _⟩ => rfl
  | ⟨1, _⟩ => rfl
  | ⟨2, _⟩ =>
    show r.val = if c = 1 then 0 else r.val
    split
    · have := r.isLt; omega
    · rfl

/-- An [a, b, c] block flattened to [m, c], m = a·b, reads, at (p·b + q, r), the operand at (p, q, r). -/
theorem shapeCast_abc_mc_apply {a b c m : ℕ} (x : (⟨3, ![a, b, c]⟩ : Shape).Idx → α)
    (h : (⟨3, ![a, b, c]⟩ : Shape).ShapeCasts ⟨2, ![m, c]⟩) (p : Fin a) (q : Fin b) (r : Fin c) (n : Fin m)
    (hn : n.val = p.val * b + q.val) :
    shapeCast ⟨2, ![m, c]⟩ x h (ix2 n r) = x (ix3 p q r) :=
  shapeCast_apply x h _ _ (by
    rw [Shape.rowMajor_val_three, Shape.rowMajor_val_two]
    show (p.val * b + q.val) * c + r.val = n.val * c + r.val
    rw [hn])

/-- An [m, c] matrix, m = a·b, unflattened to [a, b, c] reads, at (p, q, r), the operand at (p·b + q, r). -/
theorem shapeCast_mc_abc_apply {a b c m : ℕ} (x : (⟨2, ![m, c]⟩ : Shape).Idx → α)
    (h : (⟨2, ![m, c]⟩ : Shape).ShapeCasts ⟨3, ![a, b, c]⟩) (p : Fin a) (q : Fin b) (r : Fin c) (n : Fin m)
    (hn : n.val = p.val * b + q.val) :
    shapeCast ⟨3, ![a, b, c]⟩ x h (ix3 p q r) = x (ix2 n r) :=
  shapeCast_apply x h _ _ (by
    rw [Shape.rowMajor_val_three, Shape.rowMajor_val_two]
    show n.val * c + r.val = (p.val * b + q.val) * c + r.val
    rw [hn])

/-- A [1, 1, a, b] array cast to [a, b] reads, at (i, j), the operand at (0, 0, i, j). -/
theorem shapeCast_11ab_ab_apply {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp only [Nat.zero_mul, Nat.zero_add, Nat.mul_one, Nat.add_zero])

/-- A [1, 1, c] array cast to [1, c] reads, at (u, r), the operand at (0, 0, r). -/
theorem shapeCast_11c_1c_apply {c : ℕ} (x : (⟨3, ![1, 1, c]⟩ : Shape).Idx → α)
    (h : (⟨3, ![1, 1, c]⟩ : Shape).ShapeCasts ⟨2, ![1, c]⟩) (u : Fin 1) (r : Fin c) :
    shapeCast ⟨2, ![1, c]⟩ x h (ix2 u r) = x (ix3 (0 : Fin 1) (0 : Fin 1) r) :=
  shapeCast_apply x h _ _ (by
    have hu : u.val = 0 := by omega
    rw [Shape.rowMajor_val_three, Shape.rowMajor_val_two]
    show (0 * 1 + 0) * c + r.val = u.val * c + r.val
    simp only [hu, Nat.zero_mul, Nat.zero_add, Nat.mul_one, Nat.add_zero])

end Cert.LibLayoutB
-- ==== Proof.LibPlainDot.lean ====
/-
  The plain matrix product `[a, K] · [K, b]` (left operand contracted on its last axis, right operand on its first, no
  batch axes) read at an entry on the extended reals: `(x · y)[p, c] = Σₖ x[p, k] · y[k, c]`, the sum over `Fin K`.
  Stated once for any dimension record of that form, then for the two operations that compute it: a kernel's matrix
  unit product into a zero accumulator, and the host's `dot_general`.
-/
import Idealize.ShloMosaic.PureOps.Ideal.Laws
import Idealize.ShloMosaic.Lib.ValueIdx

noncomputable section

namespace Cert.LibPlainDot

open Idealize.ShloMosaic Idealize.ShloMosaic.ValueIdx

/-- The dimension numbers of a plain product: contract the left operand's axis 1 with the right operand's axis 0, keep
    the left operand's axis 0 and the right operand's axis 1, no batch axes. -/
structure IsPlain {a K b : ℕ} (D : DotDims ⟨2, ![a, K]⟩ ⟨2, ![K, b]⟩ ⟨2, ![a, b]⟩) : Prop where
  lc : D.lhsContracting = [1]
  rc : D.rhsContracting = [0]
  ln : D.lhsNonContracting = [0]
  rn : D.rhsNonContracting = [1]
  lb : D.lhsBatch = []
  rb : D.rhsBatch = []

/-- The record of a plain product, its lists spelt out. -/
abbrev mk {a K b : ℕ} (wf : DotDims.WF ⟨2, ![a, K]⟩ ⟨2, ![K, b]⟩ ⟨2, ![a, b]⟩ [1] [0] [0] [1] [] []) :
    DotDims ⟨2, ![a, K]⟩ ⟨2, ![K, b]⟩ ⟨2, ![a, b]⟩ := ⟨[1], [0], [0], [1], [], [], wf⟩

section
variable {a K b : ℕ} (wf : DotDims.WF ⟨2, ![a, K]⟩ ⟨2, ![K, b]⟩ ⟨2, ![a, b]⟩ [1] [0] [0] [1] [] [])

/-- The left operand's row is the entry's row. -/
theorem lhs_row (i : (⟨2, ![a, b]⟩ : Shape).Idx) (q : (mk wf).contr.Idx) : ((mk wf).lhsIdx i q 0).val = (i 0).val := by
  unfold DotDims.lhsIdx
  rw [dif_neg (show ¬(0 : Fin (Shape.rank ⟨2, ![a, K]⟩)) ∈ (mk wf).lhsBatch from fun h => nomatch h),
    dif_pos (show (0 : Fin (Shape.rank ⟨2, ![a, K]⟩)) ∈ (mk wf).lhsNonContracting from List.Mem.head _)]
  rfl

/-- The left operand's column is the contraction coordinate. -/
theorem lhs_col (i : (⟨2, ![a, b]⟩ : Shape).Idx) (q : (mk wf).contr.Idx) :
    ((mk wf).lhsIdx i q 1).val = (q ⟨0, Nat.one_pos⟩).val :=
  (mk wf).lhsIdx_val_of_single rfl i q

/-- The right operand's row is the contraction coordinate. -/
theorem rhs_row (i : (⟨2, ![a, b]⟩ : Shape).Idx) (q : (mk wf).contr.Idx) :
    ((mk wf).rhsIdx i q 0).val = (q ⟨0, Nat.one_pos⟩).val :=
  (mk wf).rhsIdx_val_of_single rfl i q

/-- The right operand's column is the entry's column. -/
theorem rhs_col (i : (⟨2, ![a, b]⟩ : Shape).Idx) (q : (mk wf).contr.Idx) : ((mk wf).rhsIdx i q 1).val = (i 1).val := by
  unfold DotDims.rhsIdx
  rw [dif_neg (show ¬(1 : Fin (Shape.rank ⟨2, ![K, b]⟩)) ∈ (mk wf).rhsBatch from fun h => nomatch h),
    dif_pos (show (1 : Fin (Shape.rank ⟨2, ![K, b]⟩)) ∈ (mk wf).rhsNonContracting from List.Mem.head _)]
  rfl

/-- The contraction at `(p, c)`, for the spelt-out record. -/
theorem sum_mk (x : (⟨2, ![a, K]⟩ : Shape).Idx → EReal) (y : (⟨2, ![K, b]⟩ : Shape).Idx → EReal) (p : Fin a) (c : Fin b) :
    ∑ k : (mk wf).contr.Idx, x ((mk wf).lhsIdx (ix2 p c) k) * y ((mk wf).rhsIdx (ix2 p c) k)
      = ∑ k : Fin K, x (ix2 p k) * y (ix2 k c) := by
  rw [← Equiv.sum_comp (contrEquiv1 (mk wf) K rfl rfl).symm]
  refine Finset.sum_congr rfl fun k _ => ?_
  have hk := contrEquiv1_symm_val (mk wf) K rfl rfl k
  have el : (mk wf).lhsIdx (ix2 p c) ((contrEquiv1 (mk wf) K rfl rfl).symm k) = ix2 p k := funext fun ax => Fin.ext (by
    match ax with
    | ⟨0, _⟩ => exact lhs_row wf _ _
    | ⟨1, _⟩ => exact (lhs_col wf _ _).trans hk)
  have er : (mk wf).rhsIdx (ix2 p c) ((contrEquiv1 (mk wf) K rfl rfl).symm k) = ix2 k c := funext fun ax => Fin.ext (by
    match ax with
    | ⟨0, _⟩ => exact (rhs_row wf _ _).trans hk
    | ⟨1, _⟩ => exact rhs_col wf _ _)
  rw [el, er]

end

/-- The contraction of a plain product at the entry `(p, c)` is the sum over the shared axis's coordinate. -/
theorem sum_plain {a K b : ℕ} (D : DotDims ⟨2, ![a, K]⟩ ⟨2, ![K, b]⟩ ⟨2, ![a, b]⟩) (h : IsPlain D)
    (x : (⟨2, ![a, K]⟩ : Shape).Idx → EReal) (y : (⟨2, ![K, b]⟩ : Shape).Idx → EReal) (p : Fin a) (c : Fin b) :
    ∑ k : D.contr.Idx, x (D.lhsIdx (ix2 p c) k) * y (D.rhsIdx (ix2 p c) k) = ∑ k : Fin K, x (ix2 p k) * y (ix2 k c) := by
  obtain ⟨lc, rc, ln, rn, lb, rb, wf⟩ := D
  obtain ⟨h1, h2, h3, h4, h5, h6⟩ := h
  dsimp only at h1 h2 h3 h4 h5 h6
  subst h1 h2 h3 h4 h5 h6
  exact sum_mk wf x y p c

/-- A kernel's matrix product into the zero accumulator, at an entry. -/
theorem matmul_zero_apply {a K b : ℕ} {φ₁ φ₂ : FTy} (D : DotDims ⟨2, ![a, K]⟩ ⟨2, ![K, b]⟩ ⟨2, ![a, b]⟩) (h : IsPlain D)
    (prec : Option ContractPrecision) (x : FVec Ideal ⟨2, ![a, K]⟩ φ₁) (y : FVec Ideal ⟨2, ![K, b]⟩ φ₂) (p : Fin a) (c : Fin b) :
    FloatOps.matmul D prec x y (constant ⟨2, ![a, b]⟩ .f32 0x00000000#32) (ix2 p c) = ∑ k : Fin K, x (ix2 p k) * y (ix2 k c) :=
  (Ideal.matmul_constant_zero_apply D prec x y (ix2 p c)).trans (sum_plain D h x y p c)

/-- The host's `dot_general`, at an entry, whatever its schedule key. -/
theorem dotGeneral_apply {a K b : ℕ} {φ₁ φ₂ : FTy} (D : DotDims ⟨2, ![a, K]⟩ ⟨2, ![K, b]⟩ ⟨2, ![a, b]⟩) (h : IsPlain D)
    (prec : Option ContractPrecision) (sched : HostSchedule) (x : FVec Ideal ⟨2, ![a, K]⟩ φ₁) (y : FVec Ideal ⟨2, ![K, b]⟩ φ₂)
    (p : Fin a) (c : Fin b) :
    FloatOps.dotGeneral D prec sched x y (ix2 p c) = ∑ k : Fin K, x (ix2 p k) * y (ix2 k c) :=
  (Ideal.dotGeneral_apply D prec sched x y (ix2 p c)).trans (sum_plain D h x y p c)

end Cert.LibPlainDot

end
-- ==== Proof.LibRowReduce.lean ====
/-
  Reductions along the rows of a matrix read at a row, on the extended reals (generic in the extents, imports only the
  library): the reduced index with the lane coordinate put back (`lift_row`, which also serves the host's reduce over
  the same axis), a kernel's lane maximum and lane sum over the last axis of an [a, b] array as the fold of max from the
  accumulator's value, or the sum, over the row's entries; and joining the initial value once more onto a maximum
  folded from it changes nothing.
-/
import Idealize.ShloMosaic.PureOps.Ideal.Laws
import Idealize.ShloMosaic.PureOps.Reduce
import Idealize.ShloMosaic.Lib.ValueIdx

noncomputable section

namespace Cert.LibRowReduce

open Idealize.ShloMosaic Idealize.ShloMosaic.ValueIdx

variable {a b : ℕ}

/-- The reduced index p with the lane coordinate l put back is (p, l). -/
theorem lift_row (h : (⟨2, ![a, b]⟩ : Shape).Reduces [1] (⟨1, ![a]⟩ : Shape)) (p : Fin a)
    (l : Fin ((⟨2, ![a, b]⟩ : Shape).size 1)) : h.lift (ix1 p) l = ix2 p (⟨l.val, l.isLt⟩ : Fin b) := by
  funext c; apply Fin.ext
  fin_cases c <;> rfl

/-- A kernel's lane maximum over the last axis, at row p: the fold of max from the accumulator's value over the row. -/
theorem laneMax_apply (src : FVec Ideal ⟨2, ![a, b]⟩ .f32) (acc : BitVec 32)
    (h : (⟨2, ![a, b]⟩ : Shape).Reduces [1] (⟨1, ![a]⟩ : Shape)) (hφ : FKind.Formats .f32)
    (hacc : acc = FKind.maximumf.neutral .f32 hφ) (p : Fin a) :
    multiReduction .maximumf [1] ⟨1, ![a]⟩ src acc h hφ hacc (ix1 p)
      = (Finset.univ : Finset (Fin b)).fold max (Ideal.ofBits .f32 acc) (fun l => src (ix2 p l)) := by
  refine (Ideal.multiReduction_maximumf_single src acc h hφ hacc (ix1 p)).trans ?_
  exact congrArg (fun f => Finset.fold max (Ideal.ofBits .f32 acc) f (Finset.univ : Finset (Fin b)))
    (funext fun l => congrArg src (lift_row h p l))

/-- A kernel's lane sum over the last axis, at row p: the sum over the row. -/
theorem laneSum_apply (src : FVec Ideal ⟨2, ![a, b]⟩ .f32) (acc : BitVec 32)
    (h : (⟨2, ![a, b]⟩ : Shape).Reduces [1] (⟨1, ![a]⟩ : Shape)) (hφ : FKind.Formats .f32)
    (hacc : acc = FKind.add.neutral .f32 hφ) (p : Fin a) :
    multiReduction .add [1] ⟨1, ![a]⟩ src acc h hφ hacc (ix1 p) = ∑ l : Fin b, src (ix2 p l) := by
  refine (Ideal.multiReduction_add_single src acc h hφ hacc (ix1 p)).trans ?_
  exact Finset.sum_congr rfl fun l _ => congrArg src (lift_row h p l)

/-- A maximum folded from an initial value is above it, so joining the initial value once more changes nothing. -/
theorem max_fold_self {ι : Type*} (s : Finset ι) (c : EReal) (f : ι → EReal) : max c (s.fold max c f) = s.fold max c f :=
  max_eq_right (Finset.le_fold_max c |>.mpr (Or.inl le_rfl))

end Cert.LibRowReduce

end
-- ==== Proof.LibUnitAxes.lean ====
/-
  Two leading unit axes put on a matrix, read at an index by coordinates: an [a, b] array cast to [1, 1, a, b] reads,
  at (u, v, i, j), the operand at (i, j). The cast keeps the row-major position, and the two unit coordinates
  contribute nothing to it. Generic in the extents and the element type; imports only the library.
-/
import Idealize.ShloMosaic.Lib.ValueIdx
import Idealize.ShloMosaic.Lib.ValueLayout
import Idealize.ShloMosaic.Lib.Pipeline.Value

namespace Cert.LibUnitAxes

open Idealize.ShloMosaic Idealize.ShloMosaic.ValueIdx

variable {α : Type}

/-- An [a, b] matrix cast to [1, 1, a, b] reads, at (u, v, i, j), the operand at (i, j). -/
theorem shapeCast_ab_11ab_apply {a b : ℕ} (x : (⟨2, ![a, b]⟩ : Shape).Idx → α)
    (h : (⟨2, ![a, b]⟩ : Shape).ShapeCasts ⟨4, ![1, 1, a, b]⟩) (u v : Fin 1) (i : Fin a) (j : Fin b) :
    shapeCast ⟨4, ![1, 1, a, b]⟩ x h (ix4 u v i j) = x (ix2 i j) :=
  shapeCast_apply x h _ _ (by
    have hu : u.val = 0 := by omega
    have hv : v.val = 0 := by omega
    rw [Shape.rowMajor_val_four, Shape.rowMajor_val_two]
    show i.val * b + j.val = ((u.val * 1 + v.val) * a + i.val) * b + j.val
    simp only [hu, hv, Nat.zero_mul, Nat.zero_add, Nat.mul_one, Nat.add_zero])

end Cert.LibUnitAxes
-- ==== Proof.Head.lean ====
/-
  One head of the kernel body, as a function of its four loaded blocks, read at an entry.

  The body treats the sixteen heads alike: from the mask block (one for all heads), the head's query block, key
  block and value block it forms the masked scores (query times transposed keys, plus the shift, zero where the
  mask word is zero), the norm of each row of scores kept above the floor, the quotient, and the product of the
  normalised scores with the values. `headBlk` is that composition in the body's own vector operations;
  `headBlk_apply` reads it at the entry (p, d): it is `rowOut` of the mask's row p, the query's row p, the
  keys and the values' column d. A matrix product into the zero accumulator is a plain sum, the lane sum of a
  row is a plain sum, the narrowing of the quotient to bf16 is the identity on the extended reals.
-/
import proofs.«180316_j82343112999021_1_alg».proof.Proof.Gen.KernelIdeal.Skeleton
import proofs.«180316_j82343112999021_1_alg».proof.Proof.RowLaw
import proofs.«180316_j82343112999021_1_alg».proof.Proof.LibLayout
import proofs.«180316_j82343112999021_1_alg».proof.Proof.LibLayoutB
import proofs.«180316_j82343112999021_1_alg».proof.Proof.LibPlainDot
import proofs.«180316_j82343112999021_1_alg».proof.Proof.LibRowReduce
import proofs.«180316_j82343112999021_1_alg».proof.Proof.LibUnitAxes
import Idealize.ShloMosaic.Lib.ValueLayout
import Idealize.ShloMosaic.Lib.ValueIdx
import Idealize.ShloMosaic.PureOps.Ideal.Laws

noncomputable section

namespace Cert.KernelIdeal.HeadValue

open Cert.KernelIdeal Cert.KernelIdeal.Facts₀ Idealize.ShloMosaic Idealize.ShloMosaic.ValueIdx Cert.NormScores

/-- The masked scores of a block of 256 query rows against 2048 keys. -/
def scores (M : IVec S256x2048 32) (Q : FVec Ideal S256x64 .bf16) (Kt : FVec Ideal S64x2048 .bf16) : FVec Ideal S256x2048 .f32 :=
  select (cmpi .eq M (broadcast S256x2048 0#32)) (broadcast S256x2048 (Scalar.ofBits .f32 0x00000000#32))
    (addf (matmul dot_S256x64_S64x2048_S256x2048_1_0_0_1_n_n none Q Kt (constant S256x2048 .f32 0x00000000#32))
      (broadcast S256x2048 (Scalar.ofBits .f32 0x3727C5AC#32)))

/-- The norm of each row of scores, as a column, kept above the floor. -/
def norms (S : FVec Ideal S256x2048 .f32) : FVec Ideal S256x1 .f32 :=
  maximumf (sqrt (shapeCast S256x1 (multiReduction .add [1] S256 (mulf S S) 0x00000000#32 reduces_S256x2048_S256 (.inl rfl) rfl)
      shapeCasts_S256_S256x1))
    (broadcast S256x1 (Scalar.ofBits .f32 0x2B8CBCCC#32))

/-- The normalised scores times the values. -/
def weighted (S : FVec Ideal S256x2048 .f32) (V2 : FVec Ideal S2048x64 .bf16) : FVec Ideal S256x64 .f32 :=
  matmul dot_S256x2048_S2048x64_S256x64_1_0_0_1_n_n none
    (truncf .bf16 (divf S (broadcastTo S256x2048 (norms S) broadcasts_S256x1_S256x2048)) bitsLt_bf16_f32) V2
    (constant S256x64 .f32 0x00000000#32)

/-- One head of the body over its loaded blocks. -/
def headBlk (m : Vec Ideal S1x1x256x2048 .i32) (q : Vec Ideal S1x1x256x64 .bf16) (k v : Vec Ideal S1x1x2048x64 .bf16) :
    FVec Ideal S1x1x256x64 .f32 :=
  shapeCast S1x1x256x64
    (weighted
      (scores (shapeCast S256x2048 m shapeCasts_S1x1x256x2048_S256x2048) (shapeCast S256x64 q shapeCasts_S1x1x256x64_S256x64)
        (transpose S64x2048 [1, 0] (shapeCast S2048x64 k shapeCasts_S1x1x2048x64_S2048x64) transposes_S2048x64_p1_0_S64x2048))
      (shapeCast S2048x64 v shapeCasts_S1x1x2048x64_S2048x64))
    shapeCasts_S256x64_S1x1x256x64

/-- A score at (p, j): the mask word there, the query's row p against the transposed keys' column j. -/
theorem scores_apply (M : IVec S256x2048 32) (Q : FVec Ideal S256x64 .bf16) (Kt : FVec Ideal S64x2048 .bf16)
    (p : Fin 256) (j : Fin 2048) :
    scores M Q Kt (ix2 p j) = score (fun j => M (ix2 p j)) (fun e => Q (ix2 p e)) (fun j e => Kt (ix2 e j)) j := by
  unfold scores score
  rw [select_apply, addf_apply,
    show matmul dot_S256x64_S64x2048_S256x2048_1_0_0_1_n_n none Q Kt (constant S256x2048 .f32 0x00000000#32) (ix2 p j)
        = ∑ e : Fin 64, Q (ix2 p e) * Kt (ix2 e j)
      from LibPlainDot.matmul_zero_apply _ ⟨rfl, rfl, rfl, rfl, rfl, rfl⟩ none Q Kt p j]
  rfl

/-- The norm of row p: the sum of the row's squared scores under the root, above the floor. -/
theorem norms_apply (S : FVec Ideal S256x2048 .f32) (p : Fin 256) (u : Fin 1) :
    norms S (ix2 p u) = rowNorm (fun j => S (ix2 p j)) := by
  unfold norms rowNorm
  rw [maximumf_apply]
  show max (Ideal.sqrt (shapeCast S256x1 _ shapeCasts_S256_S256x1 (ix2 p u))) _ = _
  rw [LibLayout.shapeCast_a_a1_apply]
  refine congrArg (fun z => max (Ideal.sqrt z) (Ideal.ofBits .f32 0x2B8CBCCC#32)) ?_
  exact LibRowReduce.laneSum_apply (mulf S S) 0x00000000#32 reduces_S256x2048_S256 (.inl rfl) rfl p

/-- The product at (p, d): the row's normalised scores against the values' column d. -/
theorem weighted_apply (S : FVec Ideal S256x2048 .f32) (V2 : FVec Ideal S2048x64 .bf16) (p : Fin 256) (d : Fin 64) :
    weighted S V2 (ix2 p d)
      = ∑ j : Fin 2048, Ideal.div (S (ix2 p j)) (rowNorm (fun l => S (ix2 p l))) * V2 (ix2 j d) := by
  unfold weighted
  refine (LibPlainDot.matmul_zero_apply _ ⟨rfl, rfl, rfl, rfl, rfl, rfl⟩ none _ V2 p d).trans ?_
  refine Finset.sum_congr rfl fun j _ => ?_
  rw [truncf_apply, divf_apply, LibLayout.broadcastTo_a1_ab_apply, norms_apply]

/-- One head at the entry (p, d) is the row law of the blocks' rows. -/
theorem headBlk_apply (m : Vec Ideal S1x1x256x2048 .i32) (q : Vec Ideal S1x1x256x64 .bf16) (k v : Vec Ideal S1x1x2048x64 .bf16)
    (u w : Fin 1) (p : Fin 256) (d : Fin 64) :
    headBlk m q k v (ix4 u w p d)
      = rowOut (fun j => m (ix4 (0 : Fin 1) (0 : Fin 1) p j)) (fun e => q (ix4 (0 : Fin 1) (0 : Fin 1) p e))
          (fun j e => k (ix4 (0 : Fin 1) (0 : Fin 1) j e)) (fun j => v (ix4 (0 : Fin 1) (0 : Fin 1) j d)) := by
  unfold headBlk rowOut
  rw [LibUnitAxes.shapeCast_ab_11ab_apply, weighted_apply]
  have hs : ∀ l : Fin 2048,
      scores (shapeCast S256x2048 m shapeCasts_S1x1x256x2048_S256x2048) (shapeCast S256x64 q shapeCasts_S1x1x256x64_S256x64)
        (transpose S64x2048 [1, 0] (shapeCast S2048x64 k shapeCasts_S1x1x2048x64_S2048x64) transposes_S2048x64_p1_0_S64x2048) (ix2 p l)
      = score (fun j => m (ix4 (0 : Fin 1) (0 : Fin 1) p j)) (fun e => q (ix4 (0 : Fin 1) (0 : Fin 1) p e))
          (fun j e => k (ix4 (0 : Fin 1) (0 : Fin 1) j e)) l := by
    intro l
    rw [scores_apply]
    have ht : ∀ (e : Fin 64) (j : Fin 2048),
        transpose S64x2048 [1, 0] (shapeCast S2048x64 k shapeCasts_S1x1x2048x64_S2048x64) transposes_S2048x64_p1_0_S64x2048 (ix2 e j)
          = shapeCast S2048x64 k shapeCasts_S1x1x2048x64_S2048x64 (ix2 j e) :=
      fun e j => transpose_ix2_apply _ _ e j
    simp only [ht, LibLayoutB.shapeCast_11ab_ab_apply]
  simp only [hs, LibLayoutB.shapeCast_11ab_ab_apply]

end Cert.KernelIdeal.HeadValue

end
-- ==== Proof.Pieces.lean ====
/-
  The sixteen stores of the body, one per head, as one function of the four input blocks.

  Each store writes one head's slab [1, 1, 256, 64] of the output block [1, 16, 256, 64] at offset (0, h, 0, 0); its
  payload is `headBlk` of the mask block and of the head-h slabs of the query, key and value blocks (the sixteen
  payload terms differ only in where their common subterms are named). A load through the unit-stride rectangle at
  offset (0, h, 0, 0) reads, at (0, 0, p, e), the block at (0, h, p, e). So every store's payload agrees, at the place
  it is stored, with ONE function of the block index — `blkOut`: at (0, h, p, d) the row law of the mask's row p, the
  query's row (h, p), head h's keys and column d of head h's values — and since the sixteen slabs tile the block, the
  block the body leaves is `blkOut`.
-/
import proofs.«180316_j82343112999021_1_alg».proof.Proof.Gen.KernelIdeal.Frame
import proofs.«180316_j82343112999021_1_alg».proof.Proof.Head
import Idealize.ShloMosaic.Lib.Pipeline.Value

noncomputable section

namespace Cert.KernelIdeal.Pieces

open Cert.KernelIdeal Cert.KernelIdeal.Gen Cert.KernelIdeal.Facts₀ Idealize.ShloMosaic Idealize.ShloMosaic.ValueIdx
open Cert.NormScores Cert.KernelIdeal.HeadValue

/-! ## Each head's payload is the head function of its four loads -/

theorem pay_head15 (M : Vec Ideal S1x1x256x2048 .i32) (Q : Vec Ideal S1x1x256x64 .bf16) (K V : Vec Ideal S1x1x2048x64 .bf16) :
    k0_pay1 (k0_pay2 M) (k0_pay40 Q) K V = headBlk M Q K V := rfl
theorem pay_head14 (M : Vec Ideal S1x1x256x2048 .i32) (Q : Vec Ideal S1x1x256x64 .bf16) (K V : Vec Ideal S1x1x2048x64 .bf16) :
    k0_pay39 (k0_pay2 M) Q K V = headBlk M Q K V := rfl
theorem pay_head13 (M : Vec Ideal S1x1x256x2048 .i32) (Q : Vec Ideal S1x1x256x64 .bf16) (K V : Vec Ideal S1x1x2048x64 .bf16) :
    k0_pay38 (k0_pay37 (k0_pay2 M) Q K V) = headBlk M Q K V := rfl
theorem pay_head12 (M : Vec Ideal S1x1x256x2048 .i32) (Q : Vec Ideal S1x1x256x64 .bf16) (K V : Vec Ideal S1x1x2048x64 .bf16) :
    k0_pay36 (k0_pay34 V) (k0_pay35 (k0_pay2 M) Q K) = headBlk M Q K V := rfl
theorem pay_head11 (M : Vec Ideal S1x1x256x2048 .i32) (Q : Vec Ideal S1x1x256x64 .bf16) (K V : Vec Ideal S1x1x2048x64 .bf16) :
    k0_pay33 (k0_pay30 V) (k0_pay31 (k0_pay2 M) Q K) (k0_pay32 (k0_pay2 M) Q K) = headBlk M Q K V := rfl
theorem pay_head10 (M : Vec Ideal S1x1x256x2048 .i32) (Q : Vec Ideal S1x1x256x64 .bf16) (K V : Vec Ideal S1x1x2048x64 .bf16) :
    k0_pay29 (k0_pay2 M) (k0_pay27 V) (k0_pay28 Q K) (Scalar.ofBits .f32 0x3727C5AC#32) = headBlk M Q K V := rfl
theorem pay_head9 (M : Vec Ideal S1x1x256x2048 .i32) (Q : Vec Ideal S1x1x256x64 .bf16) (K V : Vec Ideal S1x1x2048x64 .bf16) :
    k0_pay26 (k0_pay2 M) (k0_pay24 Q) (k0_pay25 K) V = headBlk M Q K V := rfl
theorem pay_head8 (M : Vec Ideal S1x1x256x2048 .i32) (Q : Vec Ideal S1x1x256x64 .bf16) (K V : Vec Ideal S1x1x2048x64 .bf16) :
    k0_pay23 (k0_pay2 M) Q K V = headBlk M Q K V := rfl
theorem pay_head7 (M : Vec Ideal S1x1x256x2048 .i32) (Q : Vec Ideal S1x1x256x64 .bf16) (K V : Vec Ideal S1x1x2048x64 .bf16) :
    k0_pay22 (k0_pay2 M) Q K V = headBlk M Q K V := rfl
theorem pay_head6 (M : Vec Ideal S1x1x256x2048 .i32) (Q : Vec Ideal S1x1x256x64 .bf16) (K V : Vec Ideal S1x1x2048x64 .bf16) :
    k0_pay21 (k0_pay20 (k0_pay2 M) Q K V) = headBlk M Q K V := rfl
theorem pay_head5 (M : Vec Ideal S1x1x256x2048 .i32) (Q : Vec Ideal S1x1x256x64 .bf16) (K V : Vec Ideal S1x1x2048x64 .bf16) :
    k0_pay19 (k0_pay15 V) (k0_pay16 (k0_pay2 M) Q K) (k0_pay17 (k0_pay2 M) Q K) (k0_pay18 (F := Ideal)) = headBlk M Q K V := rfl
theorem pay_head4 (M : Vec Ideal S1x1x256x2048 .i32) (Q : Vec Ideal S1x1x256x64 .bf16) (K V : Vec Ideal S1x1x2048x64 .bf16) :
    k0_pay14 (k0_pay11 V) (k0_pay12 Q K) (k0_pay13 (k0_pay2 M)) (Scalar.ofBits .f32 0x00000000#32) = headBlk M Q K V := rfl
theorem pay_head3 (M : Vec Ideal S1x1x256x2048 .i32) (Q : Vec Ideal S1x1x256x64 .bf16) (K V : Vec Ideal S1x1x2048x64 .bf16) :
    k0_pay10 (k0_pay2 M) (k0_pay7 Q) (k0_pay8 V) (k0_pay9 K) = headBlk M Q K V := rfl
theorem pay_head2 (M : Vec Ideal S1x1x256x2048 .i32) (Q : Vec Ideal S1x1x256x64 .bf16) (K V : Vec Ideal S1x1x2048x64 .bf16) :
    k0_pay6 (k0_pay2 M) (k0_pay5 Q) K V = headBlk M Q K V := rfl
theorem pay_head1 (M : Vec Ideal S1x1x256x2048 .i32) (Q : Vec Ideal S1x1x256x64 .bf16) (K V : Vec Ideal S1x1x2048x64 .bf16) :
    k0_pay4 (k0_pay2 M) Q K V = headBlk M Q K V := rfl
theorem pay_head0 (M : Vec Ideal S1x1x256x2048 .i32) (Q : Vec Ideal S1x1x256x64 .bf16) (K V : Vec Ideal S1x1x2048x64 .bf16) :
    k0_pay3 M Q K V = headBlk M Q K V := rfl

/-! ## What the loads read -/

/-- A load through the unit-stride rectangle of one head's slab, at offset (0, hh, 0, 0) of a [1, 16, n, 64] block,
    reads at (u, w, p, e) the block's entry (0, hh, p, e). -/
theorem idx_slab {n : ℕ} (hh : ℕ) (hlt : hh < 16)
    (inb : ∀ a, (![0, hh, 0, 0] : Fin 4 → ℕ) a + (![1, 1, n, 64] : Fin 4 → ℕ) a ≤ (⟨4, ![1, 16, n, 64]⟩ : Shape).size a)
    (u w : Fin 1) (p : Fin n) (e : Fin 64) :
    (Rect.unit (s := ⟨4, ![1, 16, n, 64]⟩) ![0, hh, 0, 0] ![1, 1, n, 64] inb).idx (ix4 u w p e)
      = ix4 (0 : Fin 1) (⟨hh, hlt⟩ : Fin 16) p e :=
  funext fun a => Fin.ext (by
    have hu : u.val = 0 := by omega
    have hw : w.val = 0 := by omega
    match a with
    | ⟨0, _⟩ => show 0 + 1 * u.val = 0; omega
    | ⟨1, _⟩ => show hh + 1 * w.val = hh; omega
    | ⟨2, _⟩ => show 0 + 1 * p.val = p.val; omega
    | ⟨3, _⟩ => show 0 + 1 * e.val = e.val; omega)

/-- A load through the whole mask block reads it where asked. -/
theorem idx_mask (inb : ∀ a, (![0, 0, 0, 0] : Fin 4 → ℕ) a + (![1, 1, 256, 2048] : Fin 4 → ℕ) a ≤ (⟨4, ![1, 1, 256, 2048]⟩ : Shape).size a)
    (u w : Fin 1) (p : Fin 256) (j : Fin 2048) :
    (Rect.unit (s := ⟨4, ![1, 1, 256, 2048]⟩) ![0, 0, 0, 0] ![1, 1, 256, 2048] inb).idx (ix4 u w p j) = ix4 u w p j :=
  funext fun a => Fin.ext (by
    match a with
    | ⟨0, _⟩ => show 0 + 1 * u.val = u.val; omega
    | ⟨1, _⟩ => show 0 + 1 * w.val = w.val; omega
    | ⟨2, _⟩ => show 0 + 1 * p.val = p.val; omega
    | ⟨3, _⟩ => show 0 + 1 * j.val = j.val; omega)

/-! ## The block the body leaves -/

/-- The output block by coordinates: head `h`, row `p`, feature `d`. -/
def blkAt (x0 : Vec Ideal S1x16x256x64 .bf16) (x1 x2 : Vec Ideal S1x16x2048x64 .bf16) (x3 : Vec Ideal S1x1x256x2048 .i32)
    (h : Fin 16) (p : Fin 256) (d : Fin 64) : EReal :=
  rowOut (fun j => x3 (ix4 (0 : Fin 1) (0 : Fin 1) p j)) (fun e => x0 (ix4 (0 : Fin 1) h p e))
    (fun j e => x1 (ix4 (0 : Fin 1) h j e)) (fun j => x2 (ix4 (0 : Fin 1) h j d))

/-- The output block as one array. -/
def blkOut (x0 : Vec Ideal S1x16x256x64 .bf16) (x1 x2 : Vec Ideal S1x16x2048x64 .bf16) (x3 : Vec Ideal S1x1x256x2048 .i32) :
    Vec Ideal S1x16x256x64 .f32 :=
  fun y => blkAt x0 x1 x2 x3 (y 1) (y 2) (y 3)

/-- Head `hh`'s store: its payload at a local index is the block function at the place it is stored. -/
theorem piece_eq (hh : ℕ) (hlt : hh < 16)
    (inbq : ∀ a, (![0, hh, 0, 0] : Fin 4 → ℕ) a + S1x1x256x64.size a ≤ S1x16x256x64.size a)
    (inbk : ∀ a, (![0, hh, 0, 0] : Fin 4 → ℕ) a + S1x1x2048x64.size a ≤ S1x16x2048x64.size a)
    (x0 : Vec Ideal S1x16x256x64 .bf16) (x1 x2 : Vec Ideal S1x16x2048x64 .bf16) (x3 : Vec Ideal S1x1x256x2048 .i32)
    (x : S1x1x256x64.Idx) :
    headBlk (View.ld x3 r0_0) (View.ld x0 (Rect.unit (s := S1x16x256x64) ![0, hh, 0, 0] S1x1x256x64.size inbq))
        (View.ld x1 (Rect.unit (s := S1x16x2048x64) ![0, hh, 0, 0] S1x1x2048x64.size inbk))
        (View.ld x2 (Rect.unit (s := S1x16x2048x64) ![0, hh, 0, 0] S1x1x2048x64.size inbk)) x
      = blkOut x0 x1 x2 x3 ((Rect.unit (s := S1x16x256x64) ![0, hh, 0, 0] S1x1x256x64.size inbq).emb x) := by
  obtain ⟨u, w, p, d, rfl⟩ : ∃ (u w : Fin 1) (p : Fin 256) (d : Fin 64), x = ix4 u w p d := ⟨x 0, x 1, x 2, x 3, eq_ix4 x⟩
  rw [headBlk_apply]
  have eo : (Rect.unit (s := S1x16x256x64) ![0, hh, 0, 0] S1x1x256x64.size inbq).emb (ix4 u w p d)
      = ix4 (0 : Fin 1) (⟨hh, hlt⟩ : Fin 16) p d := idx_slab hh hlt inbq u w p d
  rw [eo]
  show _ = blkAt x0 x1 x2 x3 (⟨hh, hlt⟩ : Fin 16) p d
  unfold blkAt
  have em : ∀ j : Fin 2048, View.ld x3 r0_0 (ix4 (0 : Fin 1) (0 : Fin 1) p j) = x3 (ix4 (0 : Fin 1) (0 : Fin 1) p j) :=
    fun j => congrArg x3 (idx_mask _ 0 0 p j)
  have eq : ∀ e : Fin 64, View.ld x0 (Rect.unit (s := S1x16x256x64) ![0, hh, 0, 0] S1x1x256x64.size inbq) (ix4 (0 : Fin 1) (0 : Fin 1) p e)
      = x0 (ix4 (0 : Fin 1) (⟨hh, hlt⟩ : Fin 16) p e) := fun e => congrArg x0 (idx_slab hh hlt inbq 0 0 p e)
  have ek : ∀ (j : Fin 2048) (e : Fin 64), View.ld x1 (Rect.unit (s := S1x16x2048x64) ![0, hh, 0, 0] S1x1x2048x64.size inbk) (ix4 (0 : Fin 1) (0 : Fin 1) j e)
      = x1 (ix4 (0 : Fin 1) (⟨hh, hlt⟩ : Fin 16) j e) := fun j e => congrArg x1 (idx_slab hh hlt inbk 0 0 j e)
  have ev : ∀ j : Fin 2048, View.ld x2 (Rect.unit (s := S1x16x2048x64) ![0, hh, 0, 0] S1x1x2048x64.size inbk) (ix4 (0 : Fin 1) (0 : Fin 1) j d)
      = x2 (ix4 (0 : Fin 1) (⟨hh, hlt⟩ : Fin 16) j d) := fun j => congrArg x2 (idx_slab hh hlt inbk 0 0 j d)
  simp only [em, eq, ek, ev]

/-- The block the body's sixteen stores leave is `blkOut` of the input blocks. -/
theorem out_eq (x0 : Vec Ideal S1x16x256x64 .bf16) (x1 x2 : Vec Ideal S1x16x2048x64 .bf16) (x3 : Vec Ideal S1x1x256x2048 .i32) :
    out0_4 (F := Ideal) x0 x1 x2 x3 = blkOut x0 x1 x2 x3 := by
  funext y
  unfold out0_4
  rw [pay_head15, pay_head14, pay_head13, pay_head12, pay_head11, pay_head10, pay_head9, pay_head8, pay_head7, pay_head6, pay_head5, pay_head4, pay_head3, pay_head2, pay_head1, pay_head0]
  refine View.canon_apply_of_pieces (blkOut x0 x1 x2 x3) _ ?_ y (cover0_4 _ _ _ _ _ _ _ _ _ _ _ _ _ _ _ _ y)
  intro pc hpc x
  simp only [List.mem_cons, List.not_mem_nil, or_false] at hpc
  rcases hpc with rfl | rfl | rfl | rfl | rfl | rfl | rfl | rfl | rfl | rfl | rfl | rfl | rfl | rfl | rfl | rfl
  · exact piece_eq 15 (by decide) _ _ x0 x1 x2 x3 x
  · exact piece_eq 14 (by decide) _ _ x0 x1 x2 x3 x
  · exact piece_eq 13 (by decide) _ _ x0 x1 x2 x3 x
  · exact piece_eq 12 (by decide) _ _ x0 x1 x2 x3 x
  · exact piece_eq 11 (by decide) _ _ x0 x1 x2 x3 x
  · exact piece_eq 10 (by decide) _ _ x0 x1 x2 x3 x
  · exact piece_eq 9 (by decide) _ _ x0 x1 x2 x3 x
  · exact piece_eq 8 (by decide) _ _ x0 x1 x2 x3 x
  · exact piece_eq 7 (by decide) _ _ x0 x1 x2 x3 x
  · exact piece_eq 6 (by decide) _ _ x0 x1 x2 x3 x
  · exact piece_eq 5 (by decide) _ _ x0 x1 x2 x3 x
  · exact piece_eq 4 (by decide) _ _ x0 x1 x2 x3 x
  · exact piece_eq 3 (by decide) _ _ x0 x1 x2 x3 x
  · exact piece_eq 2 (by decide) _ _ x0 x1 x2 x3 x
  · exact piece_eq 1 (by decide) _ _ x0 x1 x2 x3 x
  · exact piece_eq 0 (by decide) _ _ x0 x1 x2 x3 x

end Cert.KernelIdeal.Pieces

end
-- ==== Proof.ArrayValue.lean ====
/-
  From blocks to the whole array: after the run the kernel's result array is the row law of the argument arrays.

  The grid has 2 × 8 points (batch b, query tile qi). At a point the query, mask and output windows hold the blocks
  at block index (b, 0, qi, 0) — 256 query rows of all sixteen heads — and the key and value windows the whole batch
  b. So the block the body leaves (`blkOut` of the input blocks), read through the output window, is the block of
  `out` at that point: a block's coordinate is always index × size + the coordinate inside the block. The sixteen
  output blocks tile the array — row r of batch b lies in the block of point (b, r / 256) — so the array ends as
  `out` everywhere. The arrays the region finds are the arguments narrowed to bf16 by the host, and narrowing is the
  identity on the extended reals.
-/
import proofs.«180316_j82343112999021_1_alg».proof.Proof.Gen.KernelIdeal.Value
import proofs.«180316_j82343112999021_1_alg».proof.Proof.Pieces
import Idealize.ShloMosaic.Lib.Pipeline.Value
import Idealize.ShloMosaic.Lib.StableHlo.Run

noncomputable section

namespace Cert.KernelIdeal.ArrayValue

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)
open Cert.NormScores Cert.KernelIdeal.Pieces

variable (m : (ℓ : Loc nD τ sig) → Buf (Elt Ideal) ℓ) (ρ : Dev nD → PrngReg)

/-! ## The arrays the region finds -/

/-- The narrowed queries are the queries. -/
theorem V_q (c : Dev nD) : (V m c main_v0 : S2x16x2048x64.Idx → EReal) = m ((c : Thread nD τ).loc main_arg0) := by
  dsimp only [V, hostOps0]; after_results; rfl

/-- The narrowed keys are the keys. -/
theorem V_k (c : Dev nD) : (V m c main_v1 : S2x16x2048x64.Idx → EReal) = m ((c : Thread nD τ).loc main_arg1) := by
  dsimp only [V, hostOps0]; after_results; rfl

/-- The narrowed values are the values. -/
theorem V_v (c : Dev nD) : (V m c main_v2 : S2x16x2048x64.Idx → EReal) = m ((c : Thread nD τ).loc main_arg2) := by
  dsimp only [V, hostOps0]; after_results; rfl

/-! ## The index maps over the grid -/

/-- Every window's block index at a point in terms of the output window's: queries and mask move with it, keys and
    values with its batch coordinate alone; the head and feature coordinates of every block index are zero. -/
theorem idx_facts : ∀ t : Fin cfg0.N,
    win0_0.index t (0 : Fin 4) = win0_4.index t (0 : Fin 4) ∧ win0_0.index t (1 : Fin 4) = 0
    ∧ win0_0.index t (2 : Fin 4) = win0_4.index t (2 : Fin 4) ∧ win0_0.index t (3 : Fin 4) = 0
    ∧ win0_1.index t (0 : Fin 4) = win0_4.index t (0 : Fin 4) ∧ win0_1.index t (1 : Fin 4) = 0
    ∧ win0_1.index t (2 : Fin 4) = 0 ∧ win0_1.index t (3 : Fin 4) = 0
    ∧ win0_2.index t (0 : Fin 4) = win0_4.index t (0 : Fin 4) ∧ win0_2.index t (1 : Fin 4) = 0
    ∧ win0_2.index t (2 : Fin 4) = 0 ∧ win0_2.index t (3 : Fin 4) = 0
    ∧ win0_3.index t (0 : Fin 4) = win0_4.index t (0 : Fin 4) ∧ win0_3.index t (1 : Fin 4) = 0
    ∧ win0_3.index t (2 : Fin 4) = win0_4.index t (2 : Fin 4) ∧ win0_3.index t (3 : Fin 4) = 0
    ∧ win0_4.index t (0 : Fin 4) ≤ 1 ∧ win0_4.index t (1 : Fin 4) = 0
    ∧ win0_4.index t (2 : Fin 4) ≤ 7 ∧ win0_4.index t (3 : Fin 4) = 0 :=
  (by decide +kernel : ∀ t : Fin grid0.N, _)

/-- Every (batch, query tile) is some point's output block index. -/
theorem idx_onto : ∀ (b : Fin 2) (qi : Fin 8), ∃ t : Fin cfg0.N, win0_4.index t = ![b.val, 0, qi.val, 0] :=
  (by decide +kernel : ∀ (b : Fin 2) (qi : Fin 8), ∃ t : Fin grid0.N, win0_4.index t = ![b.val, 0, qi.val, 0])

/-! ## The input blocks at a point, read by coordinates -/

/-- The query block at a point of batch `B`, tile `Qi`: rows Qi·256 … of every head. -/
theorem read_q (c : Dev nD) (t : Fin cfg0.N) (B : Fin 2) (Qi : Fin 8) (hB : win0_4.index t (0 : Fin 4) = B.val)
    (hQ : win0_4.index t (2 : Fin 4) = Qi.val) (h : Fin 16) (p : Fin 256) (e : Fin 64) :
    iblk m c 0 t (ix4 (0 : Fin 1) h p e)
      = V m c main_v0 (ix4 B h (⟨Qi.val * 256 + p.val, by have := Qi.isLt; have := p.isLt; omega⟩ : Fin 2048) e) := by
  show V m c main_v0 (((cfg0.win 0).blk t).view.emb (ix4 (0 : Fin 1) h p e)) = _
  refine congrArg (V m c main_v0) (funext fun a => Fin.ext ?_)
  obtain ⟨e0, e1, e2, e3, -⟩ := idx_facts t
  match a with
  | ⟨0, _⟩ => show win0_0.index t (0 : Fin 4) * 1 + 1 * 0 = B.val; omega
  | ⟨1, _⟩ => show win0_0.index t (1 : Fin 4) * 16 + 1 * h.val = h.val; omega
  | ⟨2, _⟩ => show win0_0.index t (2 : Fin 4) * 256 + 1 * p.val = Qi.val * 256 + p.val; omega
  | ⟨3, _⟩ => show win0_0.index t (3 : Fin 4) * 64 + 1 * e.val = e.val; omega

/-- The key block at a point of batch `B`: the whole batch. -/
theorem read_k (c : Dev nD) (t : Fin cfg0.N) (B : Fin 2) (hB : win0_4.index t (0 : Fin 4) = B.val)
    (h : Fin 16) (j : Fin 2048) (e : Fin 64) :
    iblk m c 1 t (ix4 (0 : Fin 1) h j e) = V m c main_v1 (ix4 B h j e) := by
  show V m c main_v1 (((cfg0.win 1).blk t).view.emb (ix4 (0 : Fin 1) h j e)) = _
  refine congrArg (V m c main_v1) (funext fun a => Fin.ext ?_)
  obtain ⟨-, -, -, -, e0, e1, e2, e3, -⟩ := idx_facts t
  match a with
  | ⟨0, _⟩ => show win0_1.index t (0 : Fin 4) * 1 + 1 * 0 = B.val; omega
  | ⟨1, _⟩ => show win0_1.index t (1 : Fin 4) * 16 + 1 * h.val = h.val; omega
  | ⟨2, _⟩ => show win0_1.index t (2 : Fin 4) * 2048 + 1 * j.val = j.val; omega
  | ⟨3, _⟩ => show win0_1.index t (3 : Fin 4) * 64 + 1 * e.val = e.val; omega

/-- The value block at a point of batch `B`: the whole batch. -/
theorem read_v (c : Dev nD) (t : Fin cfg0.N) (B : Fin 2) (hB : win0_4.index t (0 : Fin 4) = B.val)
    (h : Fin 16) (j : Fin 2048) (e : Fin 64) :
    iblk m c 2 t (ix4 (0 : Fin 1) h j e) = V m c main_v2 (ix4 B h j e) := by
  show V m c main_v2 (((cfg0.win 2).blk t).view.emb (ix4 (0 : Fin 1) h j e)) = _
  refine congrArg (V m c main_v2) (funext fun a => Fin.ext ?_)
  obtain ⟨-, -, -, -, -, -, -, -, e0, e1, e2, e3, -⟩ := idx_facts t
  match a with
  | ⟨0, _⟩ => show win0_2.index t (0 : Fin 4) * 1 + 1 * 0 = B.val; omega
  | ⟨1, _⟩ => show win0_2.index t (1 : Fin 4) * 16 + 1 * h.val = h.val; omega
  | ⟨2, _⟩ => show win0_2.index t (2 : Fin 4) * 2048 + 1 * j.val = j.val; omega
  | ⟨3, _⟩ => show win0_2.index t (3 : Fin 4) * 64 + 1 * e.val = e.val; omega

/-- The mask block at a point of batch `B`, tile `Qi`: rows Qi·256 … of the one mask head. -/
theorem read_m (c : Dev nD) (t : Fin cfg0.N) (B : Fin 2) (Qi : Fin 8) (hB : win0_4.index t (0 : Fin 4) = B.val)
    (hQ : win0_4.index t (2 : Fin 4) = Qi.val) (p : Fin 256) (j : Fin 2048) :
    iblk m c 3 t (ix4 (0 : Fin 1) (0 : Fin 1) p j)
      = V m c main_arg3 (ix4 B (0 : Fin 1) (⟨Qi.val * 256 + p.val, by have := Qi.isLt; have := p.isLt; omega⟩ : Fin 2048) j) := by
  show V m c main_arg3 (((cfg0.win 3).blk t).view.emb (ix4 (0 : Fin 1) (0 : Fin 1) p j)) = _
  refine congrArg (V m c main_arg3) (funext fun a => Fin.ext ?_)
  obtain ⟨-, -, -, -, -, -, -, -, -, -, -, -, e0, e1, e2, e3, -⟩ := idx_facts t
  match a with
  | ⟨0, _⟩ => show win0_3.index t (0 : Fin 4) * 1 + 1 * 0 = B.val; omega
  | ⟨1, _⟩ => show win0_3.index t (1 : Fin 4) * 1 + 1 * 0 = 0; omega
  | ⟨2, _⟩ => show win0_3.index t (2 : Fin 4) * 256 + 1 * p.val = Qi.val * 256 + p.val; omega
  | ⟨3, _⟩ => show win0_3.index t (3 : Fin 4) * 2048 + 1 * j.val = j.val; omega

/-! ## A block of the row law -/

/-- If four blocks are the (B, Qi) blocks of four arrays, the block function of the blocks at (h, p, d) is the row law
    of the arrays at the array index with those block coordinates. -/
theorem blkAt_eq_out (Qa Ka Va : (⟨4, ![2, 16, 2048, 64]⟩ : Shape).Idx → EReal) (Ma : (⟨4, ![2, 1, 2048, 2048]⟩ : Shape).Idx → BitVec 32)
    (x0 : Vec Ideal S1x16x256x64 .bf16) (x1 x2 : Vec Ideal S1x16x2048x64 .bf16) (x3 : Vec Ideal S1x1x256x2048 .i32)
    (B : Fin 2) (Qi : Fin 8)
    (h0 : ∀ (h : Fin 16) (p : Fin 256) (e : Fin 64),
      x0 (ix4 (0 : Fin 1) h p e) = Qa (ix4 B h (⟨Qi.val * 256 + p.val, by have := Qi.isLt; have := p.isLt; omega⟩ : Fin 2048) e))
    (h1 : ∀ (h : Fin 16) (j : Fin 2048) (e : Fin 64), x1 (ix4 (0 : Fin 1) h j e) = Ka (ix4 B h j e))
    (h2 : ∀ (h : Fin 16) (j : Fin 2048) (e : Fin 64), x2 (ix4 (0 : Fin 1) h j e) = Va (ix4 B h j e))
    (h3 : ∀ (p : Fin 256) (j : Fin 2048),
      x3 (ix4 (0 : Fin 1) (0 : Fin 1) p j) = Ma (ix4 B (0 : Fin 1) (⟨Qi.val * 256 + p.val, by have := Qi.isLt; have := p.isLt; omega⟩ : Fin 2048) j))
    (h : Fin 16) (p : Fin 256) (d : Fin 64) (i : (⟨4, ![2, 16, 2048, 64]⟩ : Shape).Idx)
    (hi0 : (i 0).val = B.val) (hi1 : (i 1).val = h.val) (hi2 : (i 2).val = Qi.val * 256 + p.val) (hi3 : (i 3).val = d.val) :
    blkAt x0 x1 x2 x3 h p d = out Qa Ka Va Ma i := by
  have hi : i = ix4 B h (⟨Qi.val * 256 + p.val, by have := Qi.isLt; have := p.isLt; omega⟩ : Fin 2048) d :=
    funext fun a => Fin.ext (by
      match a with
      | ⟨0, _⟩ => exact hi0
      | ⟨1, _⟩ => exact hi1
      | ⟨2, _⟩ => exact hi2
      | ⟨3, _⟩ => exact hi3)
  rw [hi, out_ix4]
  unfold blkAt outAt
  simp only [h0, h1, h2, h3]

/-! ## What a point writes back, the cover, the array -/

/-- What point `t` writes back is block `t` of the row law of the arrays the region finds. -/
theorem flushed_eq (c : Dev nD) (t : Fin cfg0.N) :
    (dats m 0 c).flushed 4 t = ((cfg0.win 4).blk t).view.read (Elt Ideal)
      (out (V m c main_v0) (V m c main_v1) (V m c main_v2) (V m c main_arg3)) := by
  rw [Value.flushed4, Pieces.out_eq]
  funext j
  obtain ⟨-, -, -, -, -, -, -, -, -, -, -, -, -, -, -, -, b0, b1, b2, b3⟩ := idx_facts t
  have hj0 : (j 0).val < 1 := (j 0).isLt
  have hj1 : (j 1).val < 16 := (j 1).isLt
  have hj2 : (j 2).val < 256 := (j 2).isLt
  have hj3 : (j 3).val < 64 := (j 3).isLt
  refine blkAt_eq_out (V m c main_v0) (V m c main_v1) (V m c main_v2) (V m c main_arg3)
    (iblk m c 0 t) (iblk m c 1 t) (iblk m c 2 t) (iblk m c 3 t)
    (⟨win0_4.index t (0 : Fin 4), by omega⟩ : Fin 2) (⟨win0_4.index t (2 : Fin 4), by omega⟩ : Fin 8)
    (fun h p e => read_q m c t _ _ rfl rfl h p e) (fun h j e => read_k m c t _ rfl h j e)
    (fun h j e => read_v m c t _ rfl h j e) (fun p j => read_m m c t _ _ rfl rfl p j)
    (⟨(j 1).val, hj1⟩ : Fin 16) (⟨(j 2).val, hj2⟩ : Fin 256) (⟨(j 3).val, hj3⟩ : Fin 64)
    (((cfg0.win 4).blk t).view.emb j) ?_ ?_ ?_ ?_
  · show win0_4.index t (0 : Fin 4) * 1 + 1 * (j 0).val = win0_4.index t (0 : Fin 4); omega
  · show win0_4.index t (1 : Fin 4) * 16 + 1 * (j 1).val = (j 1).val; omega
  · show win0_4.index t (2 : Fin 4) * 256 + 1 * (j 2).val = win0_4.index t (2 : Fin 4) * 256 + (j 2).val; omega
  · show win0_4.index t (3 : Fin 4) * 64 + 1 * (j 3).val = (j 3).val; omega

/-- An index of the array is in point `t`'s output block iff each coordinate is in the block's range on its axis. -/
theorem mem_blk (t : Fin cfg0.N) (i : S2x16x2048x64.Idx) :
    i ∈ ((cfg0.win 4).blk t).view.set ↔ ∀ a : Fin 4, win0_4.index t a * S1x16x256x64.size a ≤ (i a).val
      ∧ (i a).val < win0_4.index t a * S1x16x256x64.size a + S1x16x256x64.size a := by
  show i ∈ ((View.whole main_v3).slice (win0_4.rect t)).set ↔ _
  rw [View.set_slice_whole, Rect.mem_set_unit]
  exact Iff.rfl

/-- The output blocks tile the array: row r of batch b is in the block of the point (b, r / 256). -/
theorem cover (i : S2x16x2048x64.Idx) :
    ∃ t : Fin cfg0.N, (cfg0.win 4).flush t = true ∧ i ∈ ((cfg0.win 4).blk t).view.set := by
  have hi0 : (i 0).val < 2 := (i 0).isLt
  have hi1 : (i 1).val < 16 := (i 1).isLt
  have hi2 : (i 2).val < 2048 := (i 2).isLt
  have hi3 : (i 3).val < 64 := (i 3).isLt
  obtain ⟨t, ht⟩ := idx_onto ⟨(i 0).val, hi0⟩ ⟨(i 2).val / 256, by omega⟩
  have q0 : win0_4.index t (0 : Fin 4) = (i 0).val := congrFun ht 0
  have q1 : win0_4.index t (1 : Fin 4) = 0 := congrFun ht 1
  have q2 : win0_4.index t (2 : Fin 4) = (i 2).val / 256 := congrFun ht 2
  have q3 : win0_4.index t (3 : Fin 4) = 0 := congrFun ht 3
  refine ⟨t, flush0_4 t, ?_⟩
  rw [mem_blk]
  intro a
  match a with
  | ⟨0, _⟩ => show win0_4.index t (0 : Fin 4) * 1 ≤ (i 0).val ∧ (i 0).val < win0_4.index t (0 : Fin 4) * 1 + 1; omega
  | ⟨1, _⟩ => show win0_4.index t (1 : Fin 4) * 16 ≤ (i 1).val ∧ (i 1).val < win0_4.index t (1 : Fin 4) * 16 + 16; omega
  | ⟨2, _⟩ => show win0_4.index t (2 : Fin 4) * 256 ≤ (i 2).val ∧ (i 2).val < win0_4.index t (2 : Fin 4) * 256 + 256; omega
  | ⟨3, _⟩ => show win0_4.index t (3 : Fin 4) * 64 ≤ (i 3).val ∧ (i 3).val < win0_4.index t (3 : Fin 4) * 64 + 64; omega

/-- The result array after the run is the row law of the argument arrays. -/
theorem final (c : Dev nD) :
    (dats m 0 c).arrAt 4 cfg0.N
      = out (m ((c : Thread nD τ).loc main_arg0)) (m ((c : Thread nD τ).loc main_arg1)) (m ((c : Thread nD τ).loc main_arg2))
          (m ((c : Thread nD τ).loc main_arg3)) := by
  have hfin := (dats m 0 c).arrAt_eq_of_cover 4 (out (V m c main_v0) (V m c main_v1) (V m c main_v2) (V m c main_arg3))
    (fun t _ => flushed_eq m c t) cover
  rw [V_q, V_k, V_v, V_main_arg3] at hfin
  exact hfin

/-- The kernel's run, read: the result array at the row law of the arguments, the arguments unchanged. -/
theorem run : θ_run defs (onTc (τ := τ) (main (F := Ideal))) ⟨m, fun _ => 0, ρ⟩ fun r => ∀ c : Dev nD,
      r.2.mem ((c : Thread nD τ).loc main_v3)
        = out (m ((c : Thread nD τ).loc main_arg0)) (m ((c : Thread nD τ).loc main_arg1)) (m ((c : Thread nD τ).loc main_arg2))
            (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Value.run_blocks m ρ)

end Cert.KernelIdeal.ArrayValue

end
-- ==== Proof.RefValue.lean ====
/-
  The reference's result, read one operation at a time, is the row law of the argument arrays.

  The reference forms all scores at once: the batched product of queries and keys over the feature axis, plus the
  shift, zero where the mask word (one head, spread over the sixteen) is zero; the sum of each row's squares under the
  root, kept above the floor; the quotient; and the batched product of the normalised scores with the values over the
  key axis. Read at (b, h, p, ·) each stage depends on row (b, h, p) alone, so the result at (b, h, p, d) is `outAt`.
  The host's sum starts from the zero word, which is the real zero.
-/
import proofs.«180316_j82343112999021_1_alg».proof.Proof.Gen.ReferenceIdeal.Read
import proofs.«180316_j82343112999021_1_alg».proof.Proof.RowLaw
import Idealize.ShloMosaic.PureOps.Ideal.Laws

noncomputable section

namespace Cert.ReferenceIdeal.RefValue

open Cert.ReferenceIdeal Cert.ReferenceIdeal.Read Idealize.ShloMosaic Idealize.ShloMosaic.ValueIdx Cert.NormScores

variable (x0 x1 x2 : (⟨S2x16x2048x64, .f32⟩ : BufTy).Contents (Elt Ideal)) (x3 : (⟨S2x1x2048x2048, .i32⟩ : BufTy).Contents (Elt Ideal))

/-- The masked score stage at (b, h, p, j). -/
theorem masked_apply (b : Fin 2) (h : Fin 16) (p j : Fin 2048) :
    val_main_v5 (F := Ideal) x0 x1 x3 (ix4 b h p j)
      = score (fun j => x3 (ix4 b (0 : Fin 1) p j)) (fun e => x0 (ix4 b h p e)) (fun j e => x1 (ix4 b h j e)) j := by
  rw [val_main_v5_apply, val_main_call0_v0_apply, val_main_v4_apply, val_main_v3_apply, val_main_c_apply,
    val_main_call0_v1_apply, val_main_cst_0_apply, val_main_v2_apply, val_main_v0_apply, val_main_v1_apply, val_main_cst_apply]
  have e1 : idx_main_call0_v0 (ix4 b h p j) = ix4 b (0 : Fin 1) p j :=
    funext fun a => Fin.ext (by match a with | ⟨0, _⟩ => rfl | ⟨1, _⟩ => rfl | ⟨2, _⟩ => rfl | ⟨3, _⟩ => rfl)
  have e2 : ∀ e : Fin 64, lidx_main_v0 (ix4 b h p j) e = ix4 b h p e := fun e =>
    funext fun a => Fin.ext (by match a with | ⟨0, _⟩ => rfl | ⟨1, _⟩ => rfl | ⟨2, _⟩ => rfl | ⟨3, _⟩ => rfl)
  have e3 : ∀ e : Fin 64, ridx_main_v0 (ix4 b h p j) e = ix4 b h j e := fun e =>
    funext fun a => Fin.ext (by match a with | ⟨0, _⟩ => rfl | ⟨1, _⟩ => rfl | ⟨2, _⟩ => rfl | ⟨3, _⟩ => rfl)
  simp only [e1, e2, e3]
  rfl

/-- The norm stage at (b, h, p, ·): the row's norm. -/
theorem norm_apply (b : Fin 2) (h : Fin 16) (p : Fin 2048) (u : Fin 1) :
    val_main_v11 (F := Ideal) x0 x1 x3 (ix4 b h p u)
      = rowNorm (score (fun j => x3 (ix4 b (0 : Fin 1) p j)) (fun e => x0 (ix4 b h p e)) (fun j e => x1 (ix4 b h j e))) := by
  rw [val_main_v11_apply, val_main_v9_apply, val_main_v8_apply, val_main_v7_apply, val_main_cst_1_apply,
    val_main_v10_apply, val_main_cst_2_apply]
  have e1 : idx_main_v8 (ix4 b h p u) = ix3 b h p :=
    funext fun a => Fin.ext (by match a with | ⟨0, _⟩ => rfl | ⟨1, _⟩ => rfl | ⟨2, _⟩ => rfl)
  have e2 : ∀ l : Fin 2048, idx_main_v7 (ix3 b h p) l = ix4 b h p l := fun l =>
    funext fun a => Fin.ext (by match a with | ⟨0, _⟩ => rfl | ⟨1, _⟩ => rfl | ⟨2, _⟩ => rfl | ⟨3, _⟩ => rfl)
  simp only [e1, e2, val_main_v6_apply, masked_apply]
  unfold rowNorm
  show max (Ideal.sqrt (Ideal.ofBits .f32 0x00000000#32 + _)) _ = _
  rw [Ideal.ofBits_zero_f32, zero_add]
  rfl

/-- The reference's result at (b, h, p, d). -/
theorem result_apply (b : Fin 2) (h : Fin 16) (p : Fin 2048) (d : Fin 64) :
    val_main_v14 (F := Ideal) x0 x1 x2 x3 (ix4 b h p d) = outAt x0 x1 x2 x3 b h p d := by
  rw [val_main_v14_apply]
  unfold outAt rowOut
  refine Finset.sum_congr rfl fun j _ => ?_
  have e1 : lidx_main_v14 (ix4 b h p d) j = ix4 b h p j :=
    funext fun a => Fin.ext (by match a with | ⟨0, _⟩ => rfl | ⟨1, _⟩ => rfl | ⟨2, _⟩ => rfl | ⟨3, _⟩ => rfl)
  have e2 : ridx_main_v14 (ix4 b h p d) j = ix4 b h j d :=
    funext fun a => Fin.ext (by match a with | ⟨0, _⟩ => rfl | ⟨1, _⟩ => rfl | ⟨2, _⟩ => rfl | ⟨3, _⟩ => rfl)
  have e3 : idx_main_v12 (ix4 b h p j) = ix4 b h p (0 : Fin 1) :=
    funext fun a => Fin.ext (by match a with | ⟨0, _⟩ => rfl | ⟨1, _⟩ => rfl | ⟨2, _⟩ => rfl | ⟨3, _⟩ => rfl)
  rw [e1, e2, val_main_v13_apply, val_main_v12_apply, e3, norm_apply, masked_apply]
  rfl

/-- The reference's result is the row law of the arguments, as one array. -/
theorem result_eq : val_main_v14 (F := Ideal) x0 x1 x2 x3 = out x0 x1 x2 x3 := by
  funext i
  obtain ⟨b, h, p, d, rfl⟩ : ∃ (b : Fin 2) (h : Fin 16) (p : Fin 2048) (d : Fin 64), i = ix4 b h p d :=
    ⟨i 0, i 1, i 2, i 3, eq_ix4 i⟩
  rw [result_apply, out_ix4]

end Cert.ReferenceIdeal.RefValue

end
-- ==== Proof.lean ====
/-
  A masked, L2-normalised score product (attention without softmax), kernel against reference.

  For batch b, head h, query row q and feature d both programs compute

      out[b,h,q,d] = Σ_j ( s_j / max(√(Σ_l s_l²), ε) ) · V[b,h,j,d],
      s_j = 0 where mask[b,0,q,j] = 0, else (Σ_e Q[b,h,q,e] · K[b,h,j,e]) + c,

  with the same float words for c (1e-5), ε (1e-12) and zero on both sides, the same ideal division and square root.
  The reference does it with two batched products over whole arrays; the kernel per grid point (batch, tile of 256 query
  rows) and per head with two matrix products into zero accumulators, after the host has narrowed Q, K, V to bf16 and
  narrowing the quotient to bf16 before the second product — all identities on the extended reals. So the two results
  are one function of the arguments, entry by entry (`Cert.NormScores.out`); only sums are re-indexed, and no law that
  needs finite entries is used: the precondition is not opened.

  The kernel's side: one head of the body read at an entry (Proof/Head.lean), the sixteen stores as one block function
  (Proof/Pieces.lean), the blocks as the whole array (Proof/ArrayValue.lean) over the generated frame run. The
  reference's side: its generated run, read one operation at a time (Proof/RefValue.lean). The three frames are the
  generated ones; the idealization rewrote no operation, so `preserves` is trivial.
-/
import proofs.«180316_j82343112999021_1_alg».proof.Defs
import proofs.«180316_j82343112999021_1_alg».proof.Proof.Gen.Kernel
import proofs.«180316_j82343112999021_1_alg».proof.Proof.Gen.Kernel.Skeleton
import proofs.«180316_j82343112999021_1_alg».proof.Proof.Gen.Kernel.Launch
import proofs.«180316_j82343112999021_1_alg».proof.Proof.Gen.Kernel.Points
import proofs.«180316_j82343112999021_1_alg».proof.Proof.Gen.Kernel.Frame
import proofs.«180316_j82343112999021_1_alg».proof.Proof.Gen.KernelIdeal
import proofs.«180316_j82343112999021_1_alg».proof.Proof.Gen.KernelIdeal.Skeleton
import proofs.«180316_j82343112999021_1_alg».proof.Proof.Gen.KernelIdeal.Launch
import proofs.«180316_j82343112999021_1_alg».proof.Proof.Gen.KernelIdeal.Points
import proofs.«180316_j82343112999021_1_alg».proof.Proof.Gen.KernelIdeal.Frame
import proofs.«180316_j82343112999021_1_alg».proof.Proof.Gen.ReferenceIdeal
import proofs.«180316_j82343112999021_1_alg».proof.Proof.Gen.KernelIdeal.Value
import proofs.«180316_j82343112999021_1_alg».proof.Proof.Gen.ReferenceIdeal.Run
import proofs.«180316_j82343112999021_1_alg».proof.Proof.Gen.ReferenceIdeal.Read
import proofs.«180316_j82343112999021_1_alg».proof.Proof.Gen.Pre_finite_inputs
import proofs.«180316_j82343112999021_1_alg».proof.Proof.ArrayValue
import proofs.«180316_j82343112999021_1_alg».proof.Proof.RefValue
import Idealize.ShloMosaic.Adequacy
import Idealize.ShloMosaic.Init

noncomputable section

namespace Cert.Proof

open Idealize.ShloMosaic Idealize.ShloMosaic.TcCoe Idealize.SL.Sem

/-- The kernel as printed runs and leaves its arguments alone. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference runs and leaves its arguments alone: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The two idealized programs, from memories agreeing on the arguments, end with the same result: both are the row law
    of the arguments. -/
theorem algebraic : Cert.algebraic_KernelIdeal_ReferenceIdeal := by
  intro m ρ m' ρ' _ hagree
  refine ⟨_, Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  refine ((Cert.ReferenceIdeal.Read.val_main_v14_eq _ _ _ _).trans (Cert.ReferenceIdeal.RefValue.result_eq _ _ _ _)).trans ?_
  rw [(hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
